-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x14 : Shape := ⟨2, ![20000, 14]⟩
abbrev S2x320000 : Shape := ⟨2, ![2, 320000]⟩
abbrev S320000 : Shape := ⟨1, ![320000]⟩
abbrev S14x256 : Shape := ⟨2, ![14, 256]⟩
abbrev S256 : Shape := ⟨1, ![256]⟩
abbrev S256x256 : Shape := ⟨2, ![256, 256]⟩
abbrev S768x256 : Shape := ⟨2, ![768, 256]⟩
abbrev S_ : Shape := ⟨0, ![]⟩

class Facts : Prop where
  bcast_S_S20000x14 : S_.BroadcastsInDim S20000x14 (![] : Fin 0 → Fin S20000x14.rank)
  reducesTo_S20000x14_S_d0_1 : S20000x14.ReducesTo [0, 1] S_
  h_S_ : 0 < S_.numel
  bcast_S_S320000 : S_.BroadcastsInDim S320000 (![] : Fin 0 → Fin S320000.rank)
  reducesTo_S320000_S_d0 : S320000.ReducesTo [0] S_
  bcast_S_S14x256 : S_.BroadcastsInDim S14x256 (![] : Fin 0 → Fin S14x256.rank)
  reducesTo_S14x256_S_d0_1 : S14x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_

variable [Facts]

def fn_part3 {F : FTy → Type} [FloatOps F] (main_arg12 : FVec F S768x256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S768x256 .f32 := Host.absf main_arg12
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S256x256 .f32) (main_arg9 : FVec F S256x256 .f32) (main_arg10 : FVec F S256 .f32) (main_arg11 : FVec F S256x256 .f32) (main_arg12 : FVec F S768x256 .f32) (main_arg13 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_v48 main_v49 main_v50

def fn_part1 {F : FTy → Type} [FloatOps F] (main_arg5 : FVec F S14x256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S768x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S14x256 .f32 := Host.absf main_arg5
  let main_cst_6 : FVec F S_ .f32 := constant S_ .f32 0x7F800000#32
  let main_v20 : FVec F S14x256 .f32 := broadcastInDim S14x256 ![] bcast_S_S14x256 main_cst_6
  let main_v21 : IVec S14x256 1 := cmpf .olt main_v19 main_v20
  let main_c_7 : IVec S_ 1 := constantI S_ 1 1#1
  let main_v22 : IVec S_ 1 := (fun x v => Host.reduce IntOp.andi x v reducesTo_S14x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S20000x14 .f32) (main_arg1 : IVec S2x320000 32) (main_arg2 : FVec F S320000 .f32) (main_arg3 : FVec F S14x256 .f32) (main_arg4 : FVec F S256 .f32) (main_arg5 : FVec F S14x256 .f32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S768x256 .f32) (main_arg13 : FVec F S256 .f32) : IVec S_ 1 :=
  let main_v0 : FVec F S20000x14 .f32 := Host.absf main_arg0
  let main_cst : FVec F S_ .f32 := constant S_ .f32 0x7F800000#32
  let main_v1 : FVec F S20000x14 .f32 := broadcastInDim S20000x14 ![] bcast_S_S20000x14 main_cst
  let main_v2 : IVec S20000x14 1 := cmpf .olt main_v0 main_v1
  let main_c : IVec S_ 1 := constantI S_ 1 1#1
  let main_v3 : IVec S_ 1 := (fun x v => Host.reduce IntOp.andi x v reducesTo_S20000x14_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S14x256 .f32 := Host.absf main_arg3
  let main_cst_2 : FVec F S_ .f32 := constant S_ .f32 0x7F800000#32
  let main_v10 : FVec F S14x256 .f32 := broadcastInDim S14x256 ![] bcast_S_S14x256 main_cst_2
  let main_v11 : IVec S14x256 1 := cmpf .olt main_v9 main_v10
  let main_c_3 : IVec S_ 1 := constantI S_ 1 1#1
  let main_v12 : IVec S_ 1 := (fun x v => Host.reduce IntOp.andi x v reducesTo_S14x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S20000x14 : Shape := ⟨2, ![20000, 14]⟩
abbrev S2x320000 : Shape := ⟨2, ![2, 320000]⟩
abbrev S320000 : Shape := ⟨1, ![320000]⟩
abbrev S14x256 : Shape := ⟨2, ![14, 256]⟩
abbrev S256 : Shape := ⟨1, ![256]⟩
abbrev S256x256 : Shape := ⟨2, ![256, 256]⟩
abbrev S768x256 : Shape := ⟨2, ![768, 256]⟩
abbrev S1x320000 : Shape := ⟨2, ![1, 320000]⟩
abbrev S_ : Shape := ⟨0, ![]⟩
abbrev S20000 : Shape := ⟨1, ![20000]⟩
abbrev S320000x1 : Shape := ⟨2, ![320000, 1]⟩
abbrev S20000x1 : Shape := ⟨2, ![20000, 1]⟩
abbrev S320000x14 : Shape := ⟨2, ![320000, 14]⟩
abbrev S1x256 : Shape := ⟨2, ![1, 256]⟩
abbrev S20000x256 : Shape := ⟨2, ![20000, 256]⟩
abbrev S2000x14 : Shape := ⟨2, ![2000, 14]⟩
abbrev S2000x1 : Shape := ⟨2, ![2000, 1]⟩
abbrev S2000x256 : Shape := ⟨2, ![2000, 256]⟩
abbrev S320000x256 : Shape := ⟨2, ![320000, 256]⟩

abbrev nBuf : Space → Nat
  | .hbm => 100
  | .vmem => 39
  | .smem => 0
  | _ => 0

abbrev bufTy : (tb : Table) → Fin (tcTables nBuf tb) → BufTy
  | .hbm, ⟨0, _⟩ => ⟨S20000x14, .f32⟩
  | .hbm, ⟨1, _⟩ => ⟨S2x320000, .i32⟩
  | .hbm, ⟨2, _⟩ => ⟨S320000, .f32⟩
  | .hbm, ⟨3, _⟩ => ⟨S14x256, .f32⟩
  | .hbm, ⟨4, _⟩ => ⟨S256, .f32⟩
  | .hbm, ⟨5, _⟩ => ⟨S14x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S768x256, .f32⟩
  | .hbm, ⟨13, _⟩ => ⟨S256, .f32⟩
  | .hbm, ⟨14, _⟩ => ⟨S1x320000, .i32⟩
  | .hbm, ⟨15, _⟩ => ⟨S320000, .i32⟩
  | .hbm, ⟨16, _⟩ => ⟨S1x320000, .i32⟩
  | .hbm, ⟨17, _⟩ => ⟨S320000, .i32⟩
  | .hbm, ⟨18, _⟩ => ⟨S_, .f32⟩
  | .hbm, ⟨19, _⟩ => ⟨S320000, .f32⟩
  | .hbm, ⟨20, _⟩ => ⟨S_, .f32⟩
  | .hbm, ⟨21, _⟩ => ⟨S20000, .f32⟩
  | .hbm, ⟨22, _⟩ => ⟨S320000x1, .i32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S20000, .f32⟩
  | .hbm, ⟨29, _⟩ => ⟨S20000, .f32⟩
  | .hbm, ⟨30, _⟩ => ⟨S20000x1, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x14, .f32⟩
  | .hbm, ⟨40, _⟩ => ⟨S320000x1, .f32⟩
  | .hbm, ⟨41, _⟩ => ⟨S320000x14, .f32⟩
  | .hbm, ⟨42, _⟩ => ⟨S320000x14, .f32⟩
  | .hbm, ⟨43, _⟩ => ⟨S_, .f32⟩
  | .hbm, ⟨44, _⟩ => ⟨S20000x14, .f32⟩
  | .hbm, ⟨45, _⟩ => ⟨S320000x1, .i32⟩
  | .hbm, ⟨46, _⟩ => ⟨S20000x14, .f32⟩
  | .hbm, ⟨47, _⟩ => ⟨S14x256, .bf16⟩
  | .hbm, ⟨48, _⟩ => ⟨S14x256, .bf16⟩
  | .hbm, ⟨49, _⟩ => ⟨S1x256, .f32⟩
  | .hbm, ⟨50, _⟩ => ⟨S20000x256, .bf16⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x256, .bf16⟩
  | .hbm, ⟨60, _⟩ => ⟨S320000x256, .f32⟩
  | .hbm, ⟨61, _⟩ => ⟨S320000x1, .f32⟩
  | .hbm, ⟨62, _⟩ => ⟨S320000x256, .f32⟩
  | .hbm, ⟨63, _⟩ => ⟨S320000x256, .f32⟩
  | .hbm, ⟨64, _⟩ => ⟨S_, .f32⟩
  | .hbm, ⟨65, _⟩ => ⟨S20000x256, .f32⟩
  | .hbm, ⟨66, _⟩ => ⟨S320000x1, .i32⟩
  | .hbm, ⟨67, _⟩ => ⟨S20000x256, .f32⟩
  | .hbm, ⟨68, _⟩ => ⟨S256x256, .bf16⟩
  | .hbm, ⟨69, _⟩ => ⟨S256x256, .bf16⟩
  | .hbm, ⟨70, _⟩ => ⟨S1x256, .f32⟩
  | .hbm, ⟨71, _⟩ => ⟨S20000x256, .bf16⟩
  | .hbm, ⟨72, _⟩ => ⟨S_, .i32⟩
  | .hbm, ⟨73, _⟩ => ⟨S320000, .i32⟩
  | .hbm, ⟨74, _⟩ => ⟨S320000, .i1⟩
  | .hbm, ⟨75, _⟩ => ⟨S_, .i32⟩
  | .hbm, ⟨76, _⟩ => ⟨S320000, .i32⟩
  | .hbm, ⟨77, _⟩ => ⟨S320000, .i32⟩
  | .hbm, ⟨78, _⟩ => ⟨S320000, .i32⟩
  | .hbm, ⟨79, _⟩ => ⟨S320000x1, .i32⟩
  | .hbm, ⟨80, _⟩ => ⟨S320000x256, .bf16⟩
  | .hbm, ⟨81, _⟩ => ⟨S320000x256, .f32⟩
  | .hbm, ⟨82, _⟩ => ⟨S320000x1, .f32⟩
  | .hbm, ⟨83, _⟩ => ⟨S320000x256, .f32⟩
  | .hbm, ⟨84, _⟩ => ⟨S320000x256, .f32⟩
  | .hbm, ⟨85, _⟩ => ⟨S_, .f32⟩
  | .hbm, ⟨86, _⟩ => ⟨S20000x256, .f32⟩
  | .hbm, ⟨87, _⟩ => ⟨S320000x1, .i32⟩
  | .hbm, ⟨88, _⟩ => ⟨S20000x256, .f32⟩
  | .hbm, ⟨89, _⟩ => ⟨S256x256, .bf16⟩
  | .hbm, ⟨90, _⟩ => ⟨S256x256, .bf16⟩
  | .hbm, ⟨91, _⟩ => ⟨S1x256, .f32⟩
  | .hbm, ⟨92, _⟩ => ⟨S256x256, .f32⟩
  | .hbm, ⟨93, _⟩ => ⟨S256x256, .bf16⟩
  | .hbm, ⟨94, _⟩ => ⟨S256x256, .f32⟩
  | .hbm, ⟨95, _⟩ => ⟨S256x256, .bf16⟩
  | .hbm, ⟨96, _⟩ => ⟨S256x256, .f32⟩
  | .hbm, ⟨97, _⟩ => ⟨S256x256, .bf16⟩
  | .hbm, ⟨98, _⟩ => ⟨S1x256, .f32⟩
  | .hbm, ⟨99, _⟩ => ⟨S20000x256, .f32⟩
  | .local _ .vmem, ⟨0, _⟩ => ⟨S2000x14, .f32⟩
  | .local _ .vmem, ⟨1, _⟩ => ⟨S2000x14, .f32⟩
  | .local _ .vmem, ⟨2, _⟩ => ⟨S2000x1, .f32⟩
  | .local _ .vmem, ⟨3, _⟩ => ⟨S2000x1, .f32⟩
  | .local _ .vmem, ⟨4, _⟩ => ⟨S2000x14, .f32⟩
  | .local _ .vmem, ⟨5, _⟩ => ⟨S2000x14, .f32⟩
  | .local _ .vmem, ⟨6, _⟩ => ⟨S14x256, .bf16⟩
  | .local _ .vmem, ⟨7, _⟩ => ⟨S14x256, .bf16⟩
  | .local _ .vmem, ⟨8, _⟩ => ⟨S1x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S256x256, .bf16⟩
  | .local _ .vmem, ⟨18, _⟩ => ⟨S256x256, .bf16⟩
  | .local _ .vmem, ⟨19, _⟩ => ⟨S1x256, .f32⟩
  | .local _ .vmem, ⟨20, _⟩ => ⟨S2000x256, .bf16⟩
  | .local _ .vmem, ⟨21, _⟩ => ⟨S2000x256, .bf16⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S2000x256, .bf16⟩
  | .local _ .vmem, ⟨27, _⟩ => ⟨S2000x256, .bf16⟩
  | .local _ .vmem, ⟨28, _⟩ => ⟨S2000x256, .bf16⟩
  | .local _ .vmem, ⟨29, _⟩ => ⟨S2000x256, .bf16⟩
  | .local _ .vmem, ⟨30, _⟩ => ⟨S256x256, .bf16⟩
  | .local _ .vmem, ⟨31, _⟩ => ⟨S256x256, .bf16⟩
  | .local _ .vmem, ⟨32, _⟩ => ⟨S1x256, .f32⟩
  | .local _ .vmem, ⟨33, _⟩ => ⟨S256x256, .bf16⟩
  | .local _ .vmem, ⟨34, _⟩ => ⟨S256x256, .bf16⟩
  | .local _ .vmem, ⟨35, _⟩ => ⟨S256x256, .bf16⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | _, _ => ⟨S20000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg11_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem11_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x14 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S14x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x256 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  shapeCasts_S20000_S20000x1 : S20000.ShapeCasts S20000x1
  bcast_S320000x1_S320000x14_0_1 : S320000x1.BroadcastsInDim S320000x14 (![0, 1] : Fin 2 → Fin S320000x14.rank)
  bcast_S_S20000x14 : S_.BroadcastsInDim S20000x14 (![] : Fin 0 → Fin S20000x14.rank)
  bitsLt_bf16_f32 : FTy.bits .bf16 < FTy.bits .f32
  shapeCasts_S256_S1x256 : S256.ShapeCasts S1x256
  inb_S2000x14_S2000x14_0_0 : ∀ a, (![0, 0] : Fin 2 → Nat) a + S2000x14.size a ≤ S2000x14.size a
  h_S2000x14 : 0 < S2000x14.numel
  shapeCasts_S2000x14_S2000x14 : S2000x14.ShapeCasts S2000x14
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x14 : S2000x1.Broadcasts S2000x14
  inb_S14x256_S14x256_0_0 : ∀ a, (![0, 0] : Fin 2 → Nat) a + S14x256.size a ≤ S14x256.size a
  h_S14x256 : 0 < S14x256.numel
  shapeCasts_S14x256_S14x256 : S14x256.ShapeCasts S14x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S768x256_S256x256_0_0 : S768x256.Slices ![0, 0] S256x256
  slices_S768x256_S256x256_256_0 : S768x256.Slices ![256, 0] S256x256
  slices_S768x256_S256x256_512_0 : S768x256.Slices ![512, 0] S256x256
  scatter_S20000_S320000x1_S320000_n_0_0_1_wf : ScatterDims.WF S20000 S320000x1 S320000 [] [0] [0] 1
  gather_S20000x14_S320000x1_S320000x14_1_0_n_n_0_1_114_wf : GatherDims.WF S20000x14 S320000x1 S320000x14 [1] [0] [] [0] [] 1 ![1, 14]
  scatter_S20000x14_S320000x1_S320000x14_1_0_0_1_wf : ScatterDims.WF S20000x14 S320000x1 S320000x14 [1] [0] [0] 1
  dot_S2000x14_S14x256_S2000x256_1_0_0_1_n_n_wf : DotDims.WF S2000x14 S14x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x14.size a ≤ S20000x14.size a
  hwx0_0 : ∀ i : grid0.Coords, EltTy.bits .f32 = 32 ∨ (Rect.block (s := S20000x14) S2000x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x14.size a ≤ S20000x14.size a
  hwx0_2 : ∀ i : grid0.Coords, EltTy.bits .f32 = 32 ∨ (Rect.block (s := S20000x14) S2000x14.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x256.size a ≤ S14x256.size a
  hwx0_3 : ∀ i : grid0.Coords, EltTy.bits .bf16 = 32 ∨ (Rect.block (s := S14x256) S14x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S14x256.size a ≤ S14x256.size a
  hwx0_4 : ∀ i : grid0.Coords, EltTy.bits .bf16 = 32 ∨ (Rect.block (s := S14x256) S14x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .bf16 = 32 ∨ (Rect.block (s := S20000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .bf16 = 32 ∨ (Rect.block (s := S20000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .bf16 = 32 ∨ (Rect.block (s := S20000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .bf16 = 32 ∨ (Rect.block (s := S20000x256) S2000x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .bf16 = 32 ∨ (Rect.block (s := S20000x256) S2000x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .bf16 = 32 ∨ (Rect.block (s := S256x256) S256x256.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .bf16 = 32 ∨ (Rect.block (s := S256x256) S256x256.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x256.size a ≤ S256x256.size a
  hwx2_9 : ∀ i : grid2.Coords, EltTy.bits .bf16 = 32 ∨ (Rect.block (s := S256x256) S256x256.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x256.size a ≤ S20000x256.size a
  hwx2_11 : ∀ i : grid2.Coords, EltTy.bits .f32 = 32 ∨ (Rect.block (s := S20000x256) S2000x256.size (cc2_transform_11 i) (hinb2_11 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000x14_S320000x1_S320000x14_1_0_n_n_0_1_114 : GatherDims S20000x14 S320000x1 S320000x14 where
  offsetDims := [1]
  collapsedSliceDims := [0]
  operandBatchingDims := []
  startIndicesBatchingDims := []
  startIndexMap := [0]
  indexVectorDim := 1
  sliceSizes := ![1, 14]
  wf := gather_S20000x14_S320000x1_S320000x14_1_0_n_n_0_1_114_wf
def scatter_S20000x14_S320000x1_S320000x14_1_0_0_1 : ScatterDims S20000x14 S320000x1 S320000x14 where
  updateWindowDims := [1]
  insertedWindowDims := [0]
  scatterDimsToOperandDims := [0]
  indexVectorDim := 1
  wf := scatter_S20000x14_S320000x1_S320000x14_1_0_0_1_wf
def dot_S2000x14_S14x256_S2000x256_1_0_0_1_n_n : DotDims S2000x14 S14x256 S2000x256 where
  lhsContracting := [1]
  rhsContracting := [0]
  lhsNonContracting := [0]
  rhsNonContracting := [1]
  lhsBatch := []
  rhsBatch := []
  wf := dot_S2000x14_S14x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v25) S2000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x14.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S14x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S14x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v61) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v68) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v70) S256x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v71) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v72) S2000x256.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S20000x14 : Shape := ⟨2, ![20000, 14]⟩
abbrev S2x320000 : Shape := ⟨2, ![2, 320000]⟩
abbrev S320000 : Shape := ⟨1, ![320000]⟩
abbrev S14x256 : Shape := ⟨2, ![14, 256]⟩
abbrev S256 : Shape := ⟨1, ![256]⟩
abbrev S256x256 : Shape := ⟨2, ![256, 256]⟩
abbrev S768x256 : Shape := ⟨2, ![768, 256]⟩
abbrev S1x320000 : Shape := ⟨2, ![1, 320000]⟩
abbrev S_ : Shape := ⟨0, ![]⟩
abbrev S320000x1 : Shape := ⟨2, ![320000, 1]⟩
abbrev S320000x14 : Shape := ⟨2, ![320000, 14]⟩
abbrev S20000 : Shape := ⟨1, ![20000]⟩
abbrev S20000x1 : Shape := ⟨2, ![20000, 1]⟩
abbrev S20000x256 : Shape := ⟨2, ![20000, 256]⟩
abbrev S1x256 : Shape := ⟨2, ![1, 256]⟩
abbrev S320000x256 : Shape := ⟨2, ![320000, 256]⟩
abbrev S20000x768 : Shape := ⟨2, ![20000, 768]⟩

abbrev nBuf : Space → Nat
  | .hbm => 134
  | .vmem => 0
  | .smem => 0
  | _ => 0

abbrev hbmTy0_0 (i : Nat) : BufTy := match i % 128 with
  | 0 => ⟨S20000x14, .f32⟩
  | 1 => ⟨S2x320000, .i32⟩
  | 2 => ⟨S320000, .f32⟩
  | 3 => ⟨S14x256, .f32⟩
  | 4 => ⟨S256, .f32⟩
  | 5 => ⟨S14x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256x256, .f32⟩
  | 12 => ⟨S768x256, .f32⟩
  | 13 => ⟨S256, .f32⟩
  | 14 => ⟨S1x320000, .i32⟩
  | 15 => ⟨S320000, .i32⟩
  | 16 => ⟨S1x320000, .i32⟩
  | 17 => ⟨S320000, .i32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x14, .f32⟩
  | 27 => ⟨S320000x1, .f32⟩
  | 28 => ⟨S320000x14, .f32⟩
  | 29 => ⟨S320000x14, .f32⟩
  | 30 => ⟨S_, .f32⟩
  | 31 => ⟨S20000x14, .f32⟩
  | 32 => ⟨S320000x1, .i32⟩
  | 33 => ⟨S20000x14, .f32⟩
  | 34 => ⟨S_, .f32⟩
  | 35 => ⟨S320000, .f32⟩
  | 36 => ⟨S_, .f32⟩
  | 37 => ⟨S20000, .f32⟩
  | 38 => ⟨S320000x1, .i32⟩
  | 39 => ⟨S20000, .f32⟩
  | 40 => ⟨S_, .f32⟩
  | 41 => ⟨S20000, .f32⟩
  | 42 => ⟨S20000, .f32⟩
  | 43 => ⟨S20000x1, .f32⟩
  | 44 => ⟨S20000x14, .f32⟩
  | 45 => ⟨S20000x14, .f32⟩
  | 46 => ⟨S20000x256, .f32⟩
  | 47 => ⟨S1x256, .f32⟩
  | 48 => ⟨S20000x256, .f32⟩
  | 49 => ⟨S20000x256, .f32⟩
  | 50 => ⟨S20000x256, .f32⟩
  | 51 => ⟨S20000x256, .f32⟩
  | 52 => ⟨S_, .f32⟩
  | 53 => ⟨S20000x256, .f32⟩
  | 54 => ⟨S20000x256, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S320000x1, .f32⟩
  | 65 => ⟨S320000x256, .f32⟩
  | 66 => ⟨S320000x256, .f32⟩
  | 67 => ⟨S_, .f32⟩
  | 68 => ⟨S20000x256, .f32⟩
  | 69 => ⟨S320000x1, .i32⟩
  | 70 => ⟨S20000x256, .f32⟩
  | 71 => ⟨S_, .f32⟩
  | 72 => ⟨S320000, .f32⟩
  | 73 => ⟨S_, .f32⟩
  | 74 => ⟨S20000, .f32⟩
  | 75 => ⟨S320000x1, .i32⟩
  | 76 => ⟨S20000, .f32⟩
  | 77 => ⟨S_, .f32⟩
  | 78 => ⟨S20000, .f32⟩
  | 79 => ⟨S20000, .f32⟩
  | 80 => ⟨S20000x1, .f32⟩
  | 81 => ⟨S20000x256, .f32⟩
  | 82 => ⟨S20000x256, .f32⟩
  | 83 => ⟨S20000x256, .f32⟩
  | 84 => ⟨S1x256, .f32⟩
  | 85 => ⟨S20000x256, .f32⟩
  | 86 => ⟨S20000x256, .f32⟩
  | 87 => ⟨S20000x256, .f32⟩
  | 88 => ⟨S20000x256, .f32⟩
  | 89 => ⟨S_, .f32⟩
  | 90 => ⟨S20000x256, .f32⟩
  | 91 => ⟨S20000x256, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x256, .f32⟩
  | 101 => ⟨S320000x1, .f32⟩
  | 102 => ⟨S320000x256, .f32⟩
  | 103 => ⟨S320000x256, .f32⟩
  | 104 => ⟨S_, .f32⟩
  | 105 => ⟨S20000x256, .f32⟩
  | 106 => ⟨S320000x1, .i32⟩
  | 107 => ⟨S20000x256, .f32⟩
  | 108 => ⟨S_, .f32⟩
  | 109 => ⟨S320000, .f32⟩
  | 110 => ⟨S_, .f32⟩
  | 111 => ⟨S20000, .f32⟩
  | 112 => ⟨S320000x1, .i32⟩
  | 113 => ⟨S20000, .f32⟩
  | 114 => ⟨S_, .f32⟩
  | 115 => ⟨S20000, .f32⟩
  | 116 => ⟨S20000, .f32⟩
  | 117 => ⟨S20000x1, .f32⟩
  | 118 => ⟨S20000x256, .f32⟩
  | 119 => ⟨S20000x256, .f32⟩
  | 120 => ⟨S20000x256, .f32⟩
  | 121 => ⟨S1x256, .f32⟩
  | 122 => ⟨S20000x256, .f32⟩
  | 123 => ⟨S20000x256, .f32⟩
  | 124 => ⟨S20000x256, .f32⟩
  | 125 => ⟨S20000x256, .f32⟩
  | 126 => ⟨S_, .f32⟩
  | 127 => ⟨S20000x256, .f32⟩
  | _ => ⟨S20000x14, .f32⟩

abbrev hbmTy0_1 (i : Nat) : BufTy := match i % 128 with
  | 0 => ⟨S20000x256, .f32⟩
  | 1 => ⟨S20000x768, .f32⟩
  | 2 => ⟨S20000x256, .f32⟩
  | 3 => ⟨S1x256, .f32⟩
  | 4 => ⟨S20000x256, .f32⟩
  | 5 => ⟨S20000x256, .f32⟩
  | _ => ⟨S20000x14, .f32⟩

abbrev hbmTy (i : Nat) : BufTy := match i / 128 with
  | 0 => hbmTy0_0 i
  | 1 => hbmTy0_1 i
  | _ => ⟨S20000x14, .f32⟩

abbrev bufTy : (tb : Table) → Fin (tcTables nBuf tb) → BufTy
  | .hbm, ⟨i, _⟩ => hbmTy i
  | _, _ => ⟨S20000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call1_cst : Ref sig .tc := ⟨.hbm, 89, rfl⟩
abbrev main_call1_v0 : Ref sig .tc := ⟨.hbm, 90, rfl⟩
abbrev main_v61 : Ref sig .tc := ⟨.hbm, 91, rfl⟩
abbrev main_c_10 : Ref sig .tc := ⟨.hbm, 92, rfl⟩
abbrev main_v62 : Ref sig .tc := ⟨.hbm, 93, rfl⟩
abbrev main_v63 : Ref sig .tc := ⟨.hbm, 94, rfl⟩
abbrev main_c_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call2_cst : Ref sig .tc := ⟨.hbm, 126, rfl⟩
abbrev main_call2_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x14_0_1 : S320000x1.BroadcastsInDim S320000x14 (![0, 1] : Fin 2 → Fin S320000x14.rank)
  bcast_S_S20000x14 : S_.BroadcastsInDim S20000x14 (![] : Fin 0 → Fin S20000x14.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x14_0_1 : S20000x1.BroadcastsInDim S20000x14 (![0, 1] : Fin 2 → Fin S20000x14.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S320000x1_S320000x256_0_1 : S320000x1.BroadcastsInDim S320000x256 (![0, 1] : Fin 2 → Fin S320000x256.rank)
  bcast_S20000x1_S20000x256_0_1 : S20000x1.BroadcastsInDim S20000x256 (![0, 1] : Fin 2 → Fin S20000x256.rank)
  concatenates_S20000x256_S20000x256_S20000x256_S20000x768_d1 : Shape.Concatenates [S20000x256, S20000x256, S20000x256] S20000x768 1
  gather_S20000x14_S320000x1_S320000x14_1_0_n_n_0_1_114_wf : GatherDims.WF S20000x14 S320000x1 S320000x14 [1] [0] [] [0] [] 1 ![1, 14]
  scatter_S20000x14_S320000x1_S320000x14_1_0_0_1_wf : ScatterDims.WF S20000x14 S320000x1 S320000x14 [1] [0] [0] 1
  scatter_S20000_S320000x1_S320000_n_0_0_1_wf : ScatterDims.WF S20000 S320000x1 S320000 [] [0] [0] 1
  dot_S20000x14_S14x256_S20000x256_1_0_0_1_n_n_wf : DotDims.WF S20000x14 S14x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  dot_S20000x768_S768x256_S20000x256_1_0_0_1_n_n_wf : DotDims.WF S20000x768 S768x256 S20000x256 [1] [0] [0] [1] [] []

variable [Facts₀]

def gather_S20000x14_S320000x1_S320000x14_1_0_n_n_0_1_114 : GatherDims S20000x14 S320000x1 S320000x14 where
  offsetDims := [1]
  collapsedSliceDims := [0]
  operandBatchingDims := []
  startIndicesBatchingDims := []
  startIndexMap := [0]
  indexVectorDim := 1
  sliceSizes := ![1, 14]
  wf := gather_S20000x14_S320000x1_S320000x14_1_0_n_n_0_1_114_wf
def scatter_S20000x14_S320000x1_S320000x14_1_0_0_1 : ScatterDims S20000x14 S320000x1 S320000x14 where
  updateWindowDims := [1]
  insertedWindowDims := [0]
  scatterDimsToOperandDims := [0]
  indexVectorDim := 1
  wf := scatter_S20000x14_S320000x1_S320000x14_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x14_S14x256_S20000x256_1_0_0_1_n_n : DotDims S20000x14 S14x256 S20000x256 where
  lhsContracting := [1]
  rhsContracting := [0]
  lhsNonContracting := [0]
  rhsNonContracting := [1]
  lhsBatch := []
  rhsBatch := []
  wf := dot_S20000x14_S14x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x768_S768x256_S20000x256_1_0_0_1_n_n : DotDims S20000x768 S768x256 S20000x256 where
  lhsContracting := [1]
  rhsContracting := [0]
  lhsNonContracting := [0]
  rhsNonContracting := [1]
  lhsBatch := []
  rhsBatch := []
  wf := dot_S20000x768_S768x256_S20000x256_1_0_0_1_n_n_wf

class Facts : Prop extends Facts₀ where

variable [Facts]
-- ==== Proof.KernelRun.lean ====
/-
  The idealized kernel program's whole run, with its result.

  The program is three pipelined regions among three stretches of host operations.  Its run is the launch of those
  six segments in order; at the end every buffer the TensorCore holds has the contents the fold through the segments
  leaves (`Gen.W6`: each host stretch applied to what the region before it left, each region's output array at what
  its grid points wrote back).  Read at the fourteen argument arrays that fold walks back to the launch memory (the
  frame); read at the result array it is region 2's output as written back — which is what a value statement needs.
  So this is the frame's statement with one more conjunct, the result array named.
-/
import proofs.«163192_j84086869721202_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and every argument array as launched. -/
theorem run : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Whole

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Spec.lean ====
/-
  The mathematics of one graph-convolution layer and of the closing linear map, on the extended reals, with no
  program in sight.

  A layer takes, for every node r, the aggregated messages agg[r, ·] (a sum over the edges entering r), the node's
  own features X[r, ·], and the clamped in-degree cm[r] = max (number of entering edges, 1), and returns

      max ( ((Σ_k (agg[r,k] / cm[r]) · Wrel[k,j]) + b[j]) + Σ_k X[r,k] · Wroot[k,j] , z )

  (`convAt`; z is the zero word, never evaluated).  The same layer can be computed from the reciprocal
  inv[r] = 1 / cm[r], adding the bias last:

      max ( ((Σ_k (agg[r,k] · inv[r]) · Wrel[k,j]) + Σ_k X[r,k] · Wroot[k,j]) + b[j] , z )

  (`convKerAt`).  The two agree on all extended reals as soon as cm[r] ≠ 0: x · (1 / y) = x / y off zero, at the
  infinities too, and the three summands are only regrouped, which addition of extended reals allows without any
  finiteness.  Since cm[r] ≥ 1 the hypothesis always holds (`clamp_ne_zero`).

  The closing map multiplies the three layers' outputs, laid side by side as one row of 3·w entries, with a matrix of
  3·w rows; a sum over the joined axis is the sum of the three pieces' sums (`finalAt` states it piece by piece).
-/
import Idealize.ShloMosaic.PureOps.Ideal.Laws
import Idealize.ShloMosaic.Lib.ValueIdx
import Idealize.ShloMosaic.Lib.IdealHost

noncomputable section

namespace Cert.GraphConv

open Idealize.ShloMosaic Idealize.ShloMosaic.ValueIdx

/-- A matrix of extended reals with `a` rows and `b` columns, as the library indexes it. -/
abbrev Mat (a b : ℕ) : Type := (⟨2, ![a, b]⟩ : Shape).Idx → EReal
/-- A vector of `a` extended reals. -/
abbrev Vct (a : ℕ) : Type := (⟨1, ![a]⟩ : Shape).Idx → EReal

variable {n K d : ℕ}

/-- One layer at node `r`, output feature `j`: the mean of the entering messages through `Wrel`, plus the bias, plus
    the node's own features through `Wroot`, clamped below at `z`. -/
def convAt (agg X : Mat n K) (cm : Vct n) (Wrel Wroot : Mat K d) (b : Vct d) (z : EReal) (r : Fin n) (j : Fin d) : EReal :=
  max (((∑ k : Fin K, Ideal.div (agg (ix2 r k)) (cm (ix1 r)) * Wrel (ix2 k j)) + b (ix1 j))
        + ∑ k : Fin K, X (ix2 r k) * Wroot (ix2 k j)) z

/-- The layer as a whole matrix. -/
def conv (agg X : Mat n K) (cm : Vct n) (Wrel Wroot : Mat K d) (b : Vct d) (z : EReal) : Mat n d :=
  fun i => convAt agg X cm Wrel Wroot b z (i 0) (i 1)

theorem conv_ix2 (agg X : Mat n K) (cm : Vct n) (Wrel Wroot : Mat K d) (b : Vct d) (z : EReal) (r : Fin n) (j : Fin d) :
    conv agg X cm Wrel Wroot b z (ix2 r j) = convAt agg X cm Wrel Wroot b z r j := rfl

/-- The same layer from the reciprocal of the clamped in-degree (a column), the bias (a row) added last. -/
def convKerAt (agg X : Mat n K) (inv : Mat n 1) (Wrel Wroot : Mat K d) (b : Mat 1 d) (z : EReal) (r : Fin n) (j : Fin d) : EReal :=
  max (((∑ k : Fin K, (agg (ix2 r k) * inv (ix2 r (0 : Fin 1))) * Wrel (ix2 k j))
        + ∑ k : Fin K, X (ix2 r k) * Wroot (ix2 k j)) + b (ix2 (0 : Fin 1) j)) z

/-- The two forms of a layer agree wherever the clamped in-degree is not zero: x · (1 / y) = x / y off zero, and the
    summands are regrouped. -/
theorem convKerAt_eq (agg X : Mat n K) (inv : Mat n 1) (cm : Vct n) (Wrel Wroot : Mat K d) (bK : Mat 1 d) (b : Vct d)
    (z : EReal) (r : Fin n) (j : Fin d)
    (hinv : inv (ix2 r (0 : Fin 1)) = Ideal.div 1 (cm (ix1 r))) (hcm : cm (ix1 r) ≠ 0)
    (hb : bK (ix2 (0 : Fin 1) j) = b (ix1 j)) :
    convKerAt agg X inv Wrel Wroot bK z r j = convAt agg X cm Wrel Wroot b z r j := by
  unfold convKerAt convAt
  rw [hinv, hb]
  simp only [Ideal.mul_one_div hcm]
  rw [add_right_comm]

/-- A number clamped below at one is not zero. -/
theorem clamp_ne_zero (x : EReal) : max x 1 ≠ 0 :=
  ne_of_gt (lt_of_lt_of_le zero_lt_one (le_max_right x 1))

/-- The closing map at node `r`, output `j`, piece by piece: the three layers' outputs through the three row blocks
    of the matrix, then the bias (a row). -/
def finalAt {w : ℕ} (X1 X2 X3 : Mat n w) (W1 W2 W3 : Mat w d) (b : Mat 1 d) (r : Fin n) (j : Fin d) : EReal :=
  (((∑ k : Fin w, X1 (ix2 r k) * W1 (ix2 k j)) + ∑ k : Fin w, X2 (ix2 r k) * W2 (ix2 k j))
      + ∑ k : Fin w, X3 (ix2 r k) * W3 (ix2 k j)) + b (ix2 (0 : Fin 1) j)

/-- The kernel's last body at node `r`, output `j`: the closing map of the first two layers' outputs and of the third
    layer formed on the spot (in its reciprocal form) from the third aggregation. -/
def finalConvAt {w : ℕ} (A X2 X1 : Mat n w) (I : Mat n 1) (W3r W3o : Mat w w) (B3 : Mat 1 w) (L1 L2 L3 : Mat w d)
    (BL : Mat 1 d) (z : EReal) (r : Fin n) (j : Fin d) : EReal :=
  (((∑ k : Fin w, X1 (ix2 r k) * L1 (ix2 k j)) + ∑ k : Fin w, X2 (ix2 r k) * L2 (ix2 k j))
      + ∑ k : Fin w, convKerAt A X2 I W3r W3o B3 z r k * L3 (ix2 k j)) + BL (ix2 (0 : Fin 1) j)

/-- It is the closing map of three given outputs as soon as the third is the layer it forms. -/
theorem finalConvAt_eq {w : ℕ} (A X2 X1 : Mat n w) (I : Mat n 1) (W3r W3o : Mat w w) (B3 : Mat 1 w) (L1 L2 L3 : Mat w d)
    (BL : Mat 1 d) (z : EReal) (X3 : Mat n w) (r : Fin n) (j : Fin d)
    (h3 : ∀ k : Fin w, convKerAt A X2 I W3r W3o B3 z r k = X3 (ix2 r k)) :
    finalConvAt A X2 X1 I W3r W3o B3 L1 L2 L3 BL z r j = finalAt X1 X2 X3 L1 L2 L3 BL r j := by
  unfold finalConvAt finalAt
  simp only [h3]

end Cert.GraphConv

end
-- ==== Proof.KerBody.lean ====
/-
  One graph-convolution layer as the kernel body spells it, read at one entry of its output block, for any sizes.

  The body forms agg · inv (the reciprocal of the clamped in-degree, a column, repeated across the features), takes
  that through Wrel and the node's own features through Wroot by two matrix products into zero accumulators, adds the
  bias (a row, repeated down the block's rows) last, and clamps below at zero; the format changes in between are the
  identity on the extended reals, and a cast of a block to its own shape is the block.  At row p and output feature j
  that is `convKerAt` (Spec.lean): the two products are sums over the contracted axis of entry times entry, the column
  reads its entry p and the row its entry j.
-/
import Idealize.ShloMosaic.Lib.ValueLayout
import Idealize.ShloMosaic.Lib.Pipeline.Value
import proofs.«163192_j84086869721202_2_alg».proof.Proof.LibSplitContraction
import proofs.«163192_j84086869721202_2_alg».proof.Proof.Spec

noncomputable section

namespace Cert.GraphConv

open Idealize.ShloMosaic Idealize.ShloMosaic.ValueIdx

/-- A column `[a, 1]` repeated across `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {n K d : ℕ}

/-- The layer body's stored value at row `p`, output feature `j`, is the layer in its reciprocal form. -/
theorem convBody_at
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (c1 : (⟨2, ![n, K]⟩ : Shape).ShapeCasts ⟨2, ![n, K]⟩) (c2 : (⟨2, ![n, 1]⟩ : Shape).ShapeCasts ⟨2, ![n, 1]⟩)
    (c3 : (⟨2, ![K, d]⟩ : Shape).ShapeCasts ⟨2, ![K, d]⟩) (c4 : (⟨2, ![1, d]⟩ : Shape).ShapeCasts ⟨2, ![1, d]⟩)
    (bc : (⟨2, ![n, 1]⟩ : Shape).Broadcasts ⟨2, ![n, K]⟩) (br : (⟨2, ![1, d]⟩ : Shape).Broadcasts ⟨2, ![n, d]⟩)
    (hlt : FTy.bits .bf16 < FTy.bits .f32)
    (agg : FVec Ideal ⟨2, ![n, K]⟩ .f32) (inv : FVec Ideal ⟨2, ![n, 1]⟩ .f32)
    (wr wo : FVec Ideal ⟨2, ![K, d]⟩ .bf16) (Xb : FVec Ideal ⟨2, ![n, K]⟩ .bf16) (b : FVec Ideal ⟨2, ![1, d]⟩ .f32)
    (p : Fin n) (j : Fin d) :
    (truncf .bf16 (maximumf (addf (addf
        (matmul D none (truncf .bf16 (mulf (shapeCast ⟨2, ![n, K]⟩ agg c1) (broadcastTo ⟨2, ![n, K]⟩ (shapeCast ⟨2, ![n, 1]⟩ inv c2) bc)) hlt)
          (shapeCast ⟨2, ![K, d]⟩ wr c3) (constant (F := Ideal) ⟨2, ![n, d]⟩ .f32 0x00000000#32))
        (matmul D none Xb (shapeCast ⟨2, ![K, d]⟩ wo c3) (constant (F := Ideal) ⟨2, ![n, d]⟩ .f32 0x00000000#32)))
        (broadcastTo ⟨2, ![n, d]⟩ (shapeCast ⟨2, ![1, d]⟩ b c4) br))
        (broadcast ⟨2, ![n, d]⟩ (Scalar.ofBits (F := Ideal) .f32 0x00000000#32))) hlt : FVec Ideal ⟨2, ![n, d]⟩ .bf16) (ix2 p j)
      = convKerAt agg Xb inv wr wo b (Ideal.ofBits .f32 0x00000000#32) p j := by
  unfold convKerAt
  rw [truncf_apply, maximumf_apply, addf_apply, addf_apply, broadcast_apply]
  unfold matmul
  rw [Cert.Lib.SplitContraction.matmul_zero_at D hr hs hl0 hl1 hr0 hr1,
    Cert.Lib.SplitContraction.matmul_zero_at D hr hs hl0 hl1 hr0 hr1, broadcastTo_1b_ab_apply]
  simp only [shapeCast_self, truncf_apply, mulf_apply, broadcastTo_a1_ab_apply]
  rfl

end Cert.GraphConv

end
-- ==== Proof.KerBodies.lean ====
/-
  What each of the three kernel bodies leaves in its output block, entry by entry.

  Regions 0 and 1 run the same body at widths 14 and 256: one graph-convolution layer in its reciprocal form
  (`convKerAt`) of the point's blocks of the aggregated messages, the reciprocal clamped in-degrees, the node
  features, the two weight matrices and the bias row.  Region 2 runs that layer once more and then the closing
  linear map of the three layers' outputs, piece by piece (`finalConvAt`).  Both matrix-product records contract the
  left operand's columns with the right operand's rows; the four coordinate facts below say so for each.
-/
import proofs.«163192_j84086869721202_2_alg».proof.Proof.Gen.KernelIdeal.Frame
import proofs.«163192_j84086869721202_2_alg».proof.Proof.KerBody

set_option maxRecDepth 16384

noncomputable section

namespace Cert.KernelIdeal.Bodies

open Cert.KernelIdeal Cert.KernelIdeal.Gen Cert.GraphConv
open Idealize.ShloMosaic Idealize.ShloMosaic.ValueIdx

theorem hz : (![0, 0] : Fin 2 → Nat) = fun _ => 0 := funext fun a => by fin_cases a <;> rfl

/-! ## The two product records, in coordinates -/

theorem d14_l0 (i : S2000x256.Idx) (q : dot_S2000x14_S14x256_S2000x256_1_0_0_1_n_n.contr.Idx) : (dot_S2000x14_S14x256_S2000x256_1_0_0_1_n_n.lhsIdx i q 0).val = (i 0).val := by
  unfold DotDims.lhsIdx
  rw [dif_neg (show ¬(0 : Fin S2000x14.rank) ∈ dot_S2000x14_S14x256_S2000x256_1_0_0_1_n_n.lhsBatch by decide), dif_pos (show (0 : Fin S2000x14.rank) ∈ dot_S2000x14_S14x256_S2000x256_1_0_0_1_n_n.lhsNonContracting by decide)]
  rfl
theorem d14_l1 (i : S2000x256.Idx) (q : dot_S2000x14_S14x256_S2000x256_1_0_0_1_n_n.contr.Idx) : (dot_S2000x14_S14x256_S2000x256_1_0_0_1_n_n.lhsIdx i q 1).val = (q ⟨0, by decide⟩).val :=
  dot_S2000x14_S14x256_S2000x256_1_0_0_1_n_n.lhsIdx_val_of_single rfl i q
theorem d14_r0 (i : S2000x256.Idx) (q : dot_S2000x14_S14x256_S2000x256_1_0_0_1_n_n.contr.Idx) : (dot_S2000x14_S14x256_S2000x256_1_0_0_1_n_n.rhsIdx i q 0).val = (q ⟨0, by decide⟩).val :=
  dot_S2000x14_S14x256_S2000x256_1_0_0_1_n_n.rhsIdx_val_of_single rfl i q
theorem d14_r1 (i : S2000x256.Idx) (q : dot_S2000x14_S14x256_S2000x256_1_0_0_1_n_n.contr.Idx) : (dot_S2000x14_S14x256_S2000x256_1_0_0_1_n_n.rhsIdx i q 1).val = (i 1).val := by
  unfold DotDims.rhsIdx
  rw [dif_neg (show ¬(1 : Fin S14x256.rank) ∈ dot_S2000x14_S14x256_S2000x256_1_0_0_1_n_n.rhsBatch by decide), dif_pos (show (1 : Fin S14x256.rank) ∈ dot_S2000x14_S14x256_S2000x256_1_0_0_1_n_n.rhsNonContracting by decide)]
  rfl

theorem d256_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d256_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d256_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d256_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The zero word both sides clamp at; never evaluated. -/
abbrev z0 : EReal := Ideal.ofBits .f32 0x00000000#32

/-! ## Region 0: the layer at width 14 -/

theorem out0_6_at (x0 : Vec Ideal S2000x14 .f32) (x1 : Vec Ideal S2000x1 .f32) (x2 : Vec Ideal S2000x14 .f32)
    (x3 x4 : Vec Ideal S14x256 .bf16) (x5 : Vec Ideal S1x256 .f32) (p : Fin 2000) (j : Fin 256) :
    out0_6 (F := Ideal) x0 x1 x2 x3 x4 x5 (ix2 p j) = convKerAt x0 x2 x1 x3 x4 x5 z0 p j := by
  unfold out0_6
  rw [View.canon_unit_zero hz]
  simp only [View.ld_unit_zero (S := S2000x14) hz, View.ld_unit_zero (S := S2000x1) hz, View.ld_unit_zero (S := S14x256) hz,
    View.ld_unit_zero (S := S1x256) hz]
  unfold k0_pay1
  exact convBody_at dot_S2000x14_S14x256_S2000x256_1_0_0_1_n_n rfl rfl d14_l0 d14_l1 d14_r0 d14_r1 _ _ _ _ _ _ _ x0 x1 x3 x4 (truncf .bf16 x2 bitsLt_bf16_f32) x5 p j

/-! ## Region 1: the layer at width 256 (the node features arrive already in the narrow format) -/

theorem out1_6_at (x0 : Vec Ideal S2000x256 .f32) (x1 : Vec Ideal S2000x1 .f32) (x2 : Vec Ideal S2000x256 .bf16)
    (x3 x4 : Vec Ideal S256x256 .bf16) (x5 : Vec Ideal S1x256 .f32) (p : Fin 2000) (j : Fin 256) :
    out1_6 (F := Ideal) x0 x1 x2 x3 x4 x5 (ix2 p j) = convKerAt x0 x2 x1 x3 x4 x5 z0 p j := by
  unfold out1_6
  rw [View.canon_unit_zero hz]
  simp only [View.ld_unit_zero (S := S2000x256) hz, View.ld_unit_zero (S := S2000x1) hz, View.ld_unit_zero (S := S256x256) hz,
    View.ld_unit_zero (S := S1x256) hz]
  unfold k1_pay1
  refine (convBody_at dot_S2000x256_S256x256_S2000x256_1_0_0_1_n_n rfl rfl d256_l0 d256_l1 d256_r0 d256_r1 _ _ _ _ _ _ _
    x0 x1 x3 x4 (shapeCast S2000x256 x2 shapeCasts_S2000x256_S2000x256) x5 p j).trans ?_
  rw [shapeCast_self]

/-! ## Region 2: the third layer, then the closing map piece by piece -/

/-- The third layer's block, as the body forms it before the closing map. -/
theorem pay3_at (v0 : Vec Ideal S2000x256 .f32) (v2 : Vec Ideal S2000x1 .f32) (v7 : Vec Ideal S256x256 .bf16)
    (v10 : Vec Ideal S2000x256 .bf16) (v12 : Vec Ideal S256x256 .bf16) (v16 : Vec Ideal S1x256 .f32) (p : Fin 2000) (k : Fin 256) :
    k2_pay3 (F := Ideal) v0 v2 v7 v10 v12 v16 (ix2 p k) = convKerAt v0 v10 v2 v7 v12 v16 z0 p k := by
  unfold k2_pay3 k2_pay2
  refine (convBody_at dot_S2000x256_S256x256_S2000x256_1_0_0_1_n_n rfl rfl d256_l0 d256_l1 d256_r0 d256_r1 _ _ _ _ _ _ _
    v0 v2 v7 v12 (shapeCast S2000x256 v10 shapeCasts_S2000x256_S2000x256) v16 p k).trans ?_
  rw [shapeCast_self]

theorem out2_11_at (x0 : Vec Ideal S2000x256 .f32) (x1 : Vec Ideal S2000x1 .f32) (x2 x3 : Vec Ideal S2000x256 .bf16)
    (x4 x5 : Vec Ideal S256x256 .bf16) (x6 : Vec Ideal S1x256 .f32) (x7 x8 x9 : Vec Ideal S256x256 .bf16)
    (x10 : Vec Ideal S1x256 .f32) (p : Fin 2000) (j : Fin 256) :
    out2_11 (F := Ideal) x0 x1 x2 x3 x4 x5 x6 x7 x8 x9 x10 (ix2 p j)
      = finalConvAt x0 x2 x3 x1 x4 x5 x6 x7 x8 x9 x10 z0 p j := by
  unfold out2_11
  rw [View.canon_unit_zero hz]
  simp only [View.ld_unit_zero (S := S2000x256) hz, View.ld_unit_zero (S := S2000x1) hz, View.ld_unit_zero (S := S256x256) hz,
    View.ld_unit_zero (S := S1x256) hz]
  unfold k2_pay1 k2_pay4 k2_pay5 k2_pay2 finalConvAt
  rw [addf_apply, addf_apply, addf_apply]
  unfold matmul
  rw [Cert.Lib.SplitContraction.matmul_zero_at _ rfl rfl d256_l0 d256_l1 d256_r0 d256_r1,
    Cert.Lib.SplitContraction.matmul_zero_at _ rfl rfl d256_l0 d256_l1 d256_r0 d256_r1,
    Cert.Lib.SplitContraction.matmul_zero_at _ rfl rfl d256_l0 d256_l1 d256_r0 d256_r1, broadcastTo_1b_ab_apply]
  simp only [shapeCast_self, pay3_at]

end Cert.KernelIdeal.Bodies

end
-- ==== Proof.KerArray0.lean ====
/-
  Region 0's output array as one function of the arrays the region finds.

  The grid has ten points; point t stages rows 2000·t … 2000·t + 1999 of the aggregated messages, of the reciprocal
  clamped in-degrees and of the node features, the whole of both weight matrices and of the bias row, and writes back
  rows 2000·t … 2000·t + 1999 of the output.  A layer's row depends only on the same row of its three row-wise inputs,
  so the block point t writes is rows 2000·t … of ONE whole-array function (`conv0`: the layer in its reciprocal form at
  every node); the ten blocks tile the 20000 rows (row r lies in block r / 2000), so the array ends holding it.
-/
import proofs.«163192_j84086869721202_2_alg».proof.Proof.KerBodies
import Idealize.ShloMosaic.Lib.Pipeline.Value

set_option maxRecDepth 16384

noncomputable section

namespace Cert.KernelIdeal.Arrays

open Cert.KernelIdeal Cert.KernelIdeal.Gen Cert.KernelIdeal.Bodies Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `p` of point `t`'s block is row `2000·t + p` of the array. -/
def row0 (t : Fin cfg0.N) (p : Fin 2000) : Fin 20000 :=
  ⟨t.val * 2000 + p.val, by have := t.isLt; have := p.isLt; have h : cfg0.N = 10 := N_0; omega⟩

/-- The printed index maps over the grid: the row-wise windows move with the point, the others stay. -/
theorem idx0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-! ## Each input block, read where the array holds it -/

theorem blk0_0 (c : Dev nD) (t : Fin cfg0.N) (p : Fin 2000) (k : Fin 14) :
    iblk0 V c 0 t (ix2 p k) = V c main_v25 (ix2 (row0 t p) k) := by
  show V c main_v25 (((cfg0.win 0).blk t).view.emb (ix2 p k)) = _
  refine congrArg _ (funext fun a => Fin.ext ?_)
  obtain ⟨e0, e1, -⟩ := idx0 t
  match a with
  | ⟨0, _⟩ => show win0_0.index t (0 : Fin 2) * 2000 + 1 * p.val = t.val * 2000 + p.val; omega
  | ⟨1, _⟩ => show win0_0.index t (1 : Fin 2) * 14 + 1 * k.val = k.val; omega

theorem blk0_1 (c : Dev nD) (t : Fin cfg0.N) (p : Fin 2000) (k : Fin 1) :
    iblk0 V c 1 t (ix2 p k) = V c main_v12 (ix2 (row0 t p) k) := by
  show V c main_v12 (((cfg0.win 1).blk t).view.emb (ix2 p k)) = _
  refine congrArg _ (funext fun a => Fin.ext ?_)
  obtain ⟨-, -, e0, e1, -⟩ := idx0 t
  match a with
  | ⟨0, _⟩ => show win0_1.index t (0 : Fin 2) * 2000 + 1 * p.val = t.val * 2000 + p.val; omega
  | ⟨1, _⟩ => show win0_1.index t (1 : Fin 2) * 1 + 1 * k.val = k.val; omega

theorem blk0_2 (c : Dev nD) (t : Fin cfg0.N) (p : Fin 2000) (k : Fin 14) :
    iblk0 V c 2 t (ix2 p k) = V c main_arg0 (ix2 (row0 t p) k) := by
  show V c main_arg0 (((cfg0.win 2).blk t).view.emb (ix2 p k)) = _
  refine congrArg _ (funext fun a => Fin.ext ?_)
  obtain ⟨-, -, -, -, e0, e1, -⟩ := idx0 t
  match a with
  | ⟨0, _⟩ => show win0_2.index t (0 : Fin 2) * 2000 + 1 * p.val = t.val * 2000 + p.val; omega
  | ⟨1, _⟩ => show win0_2.index t (1 : Fin 2) * 14 + 1 * k.val = k.val; omega

theorem blk0_3 (c : Dev nD) (t : Fin cfg0.N) (k : Fin 14) (j : Fin 256) :
    iblk0 V c 3 t (ix2 k j) = V c main_v26 (ix2 k j) := by
  show V c main_v26 (((cfg0.win 3).blk t).view.emb (ix2 k j)) = _
  refine congrArg _ (funext fun a => Fin.ext ?_)
  obtain ⟨-, -, -, -, -, -, e0, e1, -⟩ := idx0 t
  match a with
  | ⟨0, _⟩ => show win0_3.index t (0 : Fin 2) * 14 + 1 * k.val = k.val; omega
  | ⟨1, _⟩ => show win0_3.index t (1 : Fin 2) * 256 + 1 * j.val = j.val; omega

theorem blk0_4 (c : Dev nD) (t : Fin cfg0.N) (k : Fin 14) (j : Fin 256) :
    iblk0 V c 4 t (ix2 k j) = V c main_v27 (ix2 k j) := by
  show V c main_v27 (((cfg0.win 4).blk t).view.emb (ix2 k j)) = _
  refine congrArg _ (funext fun a => Fin.ext ?_)
  obtain ⟨-, -, -, -, -, -, -, -, e0, e1, -⟩ := idx0 t
  match a with
  | ⟨0, _⟩ => show win0_4.index t (0 : Fin 2) * 14 + 1 * k.val = k.val; omega
  | ⟨1, _⟩ => show win0_4.index t (1 : Fin 2) * 256 + 1 * j.val = j.val; omega

theorem blk0_5 (c : Dev nD) (t : Fin cfg0.N) (k : Fin 1) (j : Fin 256) :
    iblk0 V c 5 t (ix2 k j) = V c main_v28 (ix2 k j) := by
  show V c main_v28 (((cfg0.win 5).blk t).view.emb (ix2 k j)) = _
  refine congrArg _ (funext fun a => Fin.ext ?_)
  obtain ⟨-, -, -, -, -, -, -, -, -, -, e0, e1, -⟩ := idx0 t
  match a with
  | ⟨0, _⟩ => show win0_5.index t (0 : Fin 2) * 1 + 1 * k.val = k.val; omega
  | ⟨1, _⟩ => show win0_5.index t (1 : Fin 2) * 256 + 1 * j.val = j.val; omega

/-- Where point `t`'s output block sits in the array. -/
theorem emb0_6 (t : Fin cfg0.N) (p : Fin 2000) (j : Fin 256) :
    ((cfg0.win 6).blk t).view.emb (ix2 p j) = ix2 (row0 t p) j := by
  refine funext fun a => Fin.ext ?_
  obtain ⟨-, -, -, -, -, -, -, -, -, -, -, -, e0, e1⟩ := idx0 t
  match a with
  | ⟨0, _⟩ => show win0_6.index t (0 : Fin 2) * 2000 + 1 * p.val = t.val * 2000 + p.val; omega
  | ⟨1, _⟩ => show win0_6.index t (1 : Fin 2) * 256 + 1 * j.val = j.val; omega

/-! ## The whole-array function, what a point writes back, the cover, the array -/

/-- The layer at width 14 in its reciprocal form, at every node. -/
def conv0 (A : Vec Ideal S20000x14 .f32) (I : Vec Ideal S20000x1 .f32) (X : Vec Ideal S20000x14 .f32)
    (Wr Wo : Vec Ideal S14x256 .bf16) (B : Vec Ideal S1x256 .f32) : Vec Ideal S20000x256 .bf16 :=
  fun i => convKerAt A X I Wr Wo B z0 (i 0) (i 1)

/-- What point `t` writes back is block `t` of that function of the arrays as the region finds them. -/
theorem flushed0 (c : Dev nD) (t : Fin cfg0.N) :
    (dat0 V c).flushed 6 t = ((cfg0.win 6).blk t).view.read (Elt Ideal)
      (conv0 (V c main_v25) (V c main_v12) (V c main_arg0) (V c main_v26) (V c main_v27) (V c main_v28)) := by
  show (cfg0.win 6).cut (grid0.coords t) ((dat0 V c).after 6 t) = _
  rw [after0_6]
  funext y
  obtain ⟨p, j, rfl⟩ : ∃ (p : Fin 2000) (j : Fin 256), y = ix2 p j := ⟨y 0, y 1, eq_ix2 y⟩
  show out0_6 (iblk0 V c 0 t) (iblk0 V c 1 t) (iblk0 V c 2 t) (iblk0 V c 3 t) (iblk0 V c 4 t) (iblk0 V c 5 t) (ix2 p j)
    = conv0 (V c main_v25) (V c main_v12) (V c main_arg0) (V c main_v26) (V c main_v27) (V c main_v28)
        (((cfg0.win 6).blk t).view.emb (ix2 p j))
  rw [out0_6_at, emb0_6]
  show convKerAt _ _ _ _ _ _ z0 p j = convKerAt _ _ _ _ _ _ z0 (row0 t p) j
  unfold convKerAt
  simp only [blk0_0, blk0_1, blk0_2, blk0_3, blk0_4, blk0_5]

/-- An index of the array is in point `t`'s block iff each coordinate is in the block's range on its axis. -/
theorem mem_blk0 (t : Fin cfg0.N) (i : S20000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v29).slice (win0_6.rect t)).set ↔ _
  rw [View.set_slice_whole, Rect.mem_set_unit]
  exact Iff.rfl

/-- Row `r` lies in the block of point `r / 2000`: the ten blocks tile the array. -/
theorem cover0 (i : S20000x256.Idx) :
    ∃ t : Fin cfg0.N, (cfg0.win 6).flush t = true ∧ i ∈ ((cfg0.win 6).blk t).view.set := by
  have hi0 : (i 0).val < 20000 := (i 0).isLt
  have hi1 : (i 1).val < 256 := (i 1).isLt
  have hN : cfg0.N = 10 := N_0
  let t : Fin cfg0.N := ⟨(i 0).val / 2000, by omega⟩
  obtain ⟨-, -, -, -, -, -, -, -, -, -, -, -, e0, e1⟩ := idx0 t
  have ht : t.val = (i 0).val / 2000 := rfl
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- Region 0's output array after its ten points. -/
theorem array0 (c : Dev nD) :
    (dat0 V c).arrAt 6 cfg0.N
      = conv0 (V c main_v25) (V c main_v12) (V c main_arg0) (V c main_v26) (V c main_v27) (V c main_v28) :=
  (dat0 V c).arrAt_eq_of_cover 6 _ (fun t _ => flushed0 V c t) cover0

end Cert.KernelIdeal.Arrays

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.LibHostRowColumn.lean ====
/-
  Two host layouts read at an index, for any sizes and any element type.

  * row_repeated: a vector of b entries made one row [1, b] (broadcast_in_dim along axis 1) and then repeated down
    a rows (broadcast_in_dim of [1, b] into [a, b]) reads, at (e, c), the vector's entry c: a bias vector added to
    every row of a matrix.
  * column_repeated: a vector of a entries made a column [a, 1] (broadcast_in_dim along axis 0) and then repeated
    across b columns reads, at (e, c), the vector's entry e: a row maximum subtracted from, or a row sum divided
    into, every entry of its row.
-/
import Idealize.ShloMosaic.Lib.Pipeline.Value
import Idealize.ShloMosaic.Lib.ValueIdx

namespace Cert.Lib.HostRowColumn

open Idealize.ShloMosaic Idealize.ShloMosaic.ValueIdx

variable {α : Type}

/-- A vector made one row and repeated down the rows reads, at (e, c), its entry c. -/
theorem row_repeated {a b : ℕ} (β : (⟨1, ![b]⟩ : Shape).Idx → α)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  (broadcastInDim_apply _ h' _ (ix2 e c) (ix2 (0 : Fin 1) c) (fun ax => by
    match ax with
    | ⟨0, _⟩ => rfl
    | ⟨1, _⟩ =>
      show c.val = if b = 1 then 0 else c.val
      split
      · have := c.isLt; omega
      · rfl)).trans
  (broadcastInDim_apply _ h β (ix2 (0 : Fin 1) c) (ix1 c) (fun ax => by
    match ax with
    | ⟨0, _⟩ =>
      show c.val = if b = 1 then 0 else c.val
      split
      · have := c.isLt; omega
      · rfl))

/-- A vector made a column and repeated across the columns reads, at (e, c), its entry e. -/
theorem column_repeated {a b : ℕ} (v : (⟨1, ![a]⟩ : Shape).Idx → α)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  (broadcastInDim_apply _ h' _ (ix2 e c) (ix2 e (0 : Fin 1)) (fun ax => by
    match ax with
    | ⟨0, _⟩ =>
      show e.val = if a = 1 then 0 else e.val
      split
      · have := e.isLt; omega
      · rfl
    | ⟨1, _⟩ => rfl)).trans
  (broadcastInDim_apply _ h v (ix2 e (0 : Fin 1)) (ix1 e) (fun ax => by
    match ax with
    | ⟨0, _⟩ =>
      show e.val = if a = 1 then 0 else e.val
      split
      · have := e.isLt; omega
      · rfl))

end Cert.Lib.HostRowColumn
-- ==== Proof.HostLayer.lean ====
/-
  One graph-convolution layer as the host program spells it, read at one entry, for any sizes.

  The host divides the aggregated messages by the clamped in-degree (a vector, made a column and repeated across the
  features), takes the quotient through Wrel by a dot_general, adds the bias (a vector, made a row and repeated down
  the rows), adds the node's own features through Wroot by a second dot_general, and clamps below at a splat of the
  zero word.  At node r and output feature j that is `convAt` (Spec.lean): each dot_general is the sum over the
  contracted axis of entry times entry, the repeated column reads its entry r, the repeated row its entry j.
-/
import Idealize.ShloMosaic.Lib.IdealHost
import proofs.«163192_j84086869721202_2_alg».proof.Proof.LibDotGeneralAt
import proofs.«163192_j84086869721202_2_alg».proof.Proof.LibHostRowColumn
import proofs.«163192_j84086869721202_2_alg».proof.Proof.Spec

noncomputable section

namespace Cert.GraphConv

open Idealize.ShloMosaic Idealize.ShloMosaic.ValueIdx

variable {n K d : ℕ}

/-- The host's layer at node `r`, output feature `j`, is the layer in its quotient form. -/
theorem convHost_at
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (h1 : (⟨1, ![n]⟩ : Shape).BroadcastsInDim ⟨2, ![n, 1]⟩ (![0] : Fin 1 → Fin 2))
    (h2 : (⟨2, ![n, 1]⟩ : Shape).BroadcastsInDim ⟨2, ![n, K]⟩ (![0, 1] : Fin 2 → Fin 2))
    (h3 : (⟨1, ![d]⟩ : Shape).BroadcastsInDim ⟨2, ![1, d]⟩ (![1] : Fin 1 → Fin 2))
    (h4 : (⟨2, ![1, d]⟩ : Shape).BroadcastsInDim ⟨2, ![n, d]⟩ (![0, 1] : Fin 2 → Fin 2))
    (h5 : (⟨0, ![]⟩ : Shape).BroadcastsInDim ⟨2, ![n, d]⟩ (![] : Fin 0 → Fin 2))
    (agg X : FVec Ideal ⟨2, ![n, K]⟩ .f32) (cm : FVec Ideal ⟨1, ![n]⟩ .f32)
    (Wrel Wroot : FVec Ideal ⟨2, ![K, d]⟩ .f32) (b : FVec Ideal ⟨1, ![d]⟩ .f32) (r : Fin n) (j : Fin d) :
    maximumf (addf (addf
        (Host.dotGeneral D none (Host.divf agg (broadcastInDim ⟨2, ![n, K]⟩ ![0, 1] h2 (broadcastInDim ⟨2, ![n, 1]⟩ ![0] h1 cm))) Wrel)
        (broadcastInDim ⟨2, ![n, d]⟩ ![0, 1] h4 (broadcastInDim ⟨2, ![1, d]⟩ ![1] h3 b)))
        (Host.dotGeneral D none X Wroot))
      (broadcastInDim ⟨2, ![n, d]⟩ ![] h5 (constant (F := Ideal) ⟨0, ![]⟩ .f32 0x00000000#32)) (ix2 r j)
      = convAt agg X cm Wrel Wroot b (Ideal.ofBits .f32 0x00000000#32) r j := by
  unfold convAt
  rw [maximumf_apply, addf_apply, addf_apply, broadcastInDim_scalar_apply]
  unfold Host.dotGeneral
  rw [Cert.Lib.DotGeneralAt.dotGeneral_at D hr hs hl0 hl1 hr0 hr1, Cert.Lib.DotGeneralAt.dotGeneral_at D hr hs hl0 hl1 hr0 hr1,
    Cert.Lib.HostRowColumn.row_repeated]
  have hc : ∀ k : Fin K, broadcastInDim ⟨2, ![n, K]⟩ ![0, 1] h2 (broadcastInDim ⟨2, ![n, 1]⟩ ![0] h1 cm) (ix2 r k) = cm (ix1 r) :=
    fun k => Cert.Lib.HostRowColumn.column_repeated cm h1 h2 r k
  simp only [hostDivf_apply, hc]
  rfl

end Cert.GraphConv

end
-- ==== Proof.RefLayers.lean ====
/-
  The reference program's stages as the mathematics of Spec.lean.

  Each of its three layers is `convAt` — the layer in its quotient form — of the stage that aggregates the entering
  messages, the previous layer's output (the node features for the first), the clamped in-degree, the two weight
  matrices and the bias.  Its last stage multiplies the three outputs laid side by side (768 columns) with the closing
  matrix (768 rows) and adds the bias: a sum over the 768 joined columns is the sum over the first 256, the next 256
  and the last 256, and on each piece the joined row reads that layer's output, so the stage is `finalAt` of the
  three outputs and of the closing matrix's three blocks of 256 rows.
-/
import proofs.«163192_j84086869721202_2_alg».proof.Proof.Gen.ReferenceIdeal.Read
import proofs.«163192_j84086869721202_2_alg».proof.Proof.HostLayer
import proofs.«163192_j84086869721202_2_alg».proof.Proof.LibSplitContraction

set_option maxRecDepth 16384

noncomputable section

namespace Cert.ReferenceIdeal.Layers

open Cert.ReferenceIdeal Cert.ReferenceIdeal.Gen Cert.ReferenceIdeal.Read Cert.GraphConv
open Idealize.ShloMosaic Idealize.ShloMosaic.ValueIdx

/-- The zero word both sides clamp at; never evaluated. -/
abbrev z0 : EReal := Ideal.ofBits .f32 0x00000000#32

/-! ## The three layers -/

theorem layer1_at (x0 : (⟨S20000x14, .f32⟩ : BufTy).Contents (Elt Ideal)) (x1 : (⟨S2x320000, .i32⟩ : BufTy).Contents (Elt Ideal)) (x2 : (⟨S320000, .f32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) (r : Fin 20000) (j : Fin 256) :
    val_main_v32 (F := Ideal) x0 x1 x2 x3 x4 x5 (ix2 r j)
      = convAt (val_main_v16 (F := Ideal) x0 x1 x2) x0 (val_main_v22 (F := Ideal) x1) x3 x5 x4 z0 r j := by
  unfold val_main_v32 val_main_v31 val_main_v30 val_main_v29 val_main_v28 val_main_v27 val_main_v26 val_main_v25
    val_main_v24 val_main_v23 val_main_call0_v0 val_main_call0_cst
  exact convHost_at dot_S20000x14_S14x256_S20000x256_1_0_0_1_n_n rfl rfl lhs_main_v26_0 lhs_main_v26_1 rhs_main_v26_0
    rhs_main_v26_1 _ _ _ _ _ _ _ _ _ _ _ r j

theorem layer2_at (x0 : (⟨S20000x14, .f32⟩ : BufTy).Contents (Elt Ideal)) (x1 : (⟨S2x320000, .i32⟩ : BufTy).Contents (Elt Ideal)) (x2 : (⟨S320000, .f32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (r : Fin 20000) (j : Fin 256) :
    val_main_v61 (F := Ideal) x0 x1 x2 x3 x4 x5 x6 x7 x8 (ix2 r j)
      = convAt (val_main_v45 (F := Ideal) x0 x1 x2 x3 x4 x5) (val_main_v32 (F := Ideal) x0 x1 x2 x3 x4 x5)
          (val_main_v51 (F := Ideal) x1) x6 x8 x7 z0 r j := by
  unfold val_main_v61 val_main_v60 val_main_v59 val_main_v58 val_main_v57 val_main_v56 val_main_v55 val_main_v54
    val_main_v53 val_main_v52 val_main_call1_v0 val_main_call1_cst
  exact convHost_at dot_S20000x256_S256x256_S20000x256_1_0_0_1_n_n rfl rfl lhs_main_v55_0 lhs_main_v55_1 rhs_main_v55_0
    rhs_main_v55_1 _ _ _ _ _ _ _ _ _ _ _ r j

theorem layer3_at (x0 : (⟨S20000x14, .f32⟩ : BufTy).Contents (Elt Ideal)) (x1 : (⟨S2x320000, .i32⟩ : BufTy).Contents (Elt Ideal)) (x2 : (⟨S320000, .f32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) (x6 : (⟨S256x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) (x11 : (⟨S256x256, .f32⟩ : BufTy).Contents (Elt Ideal)) (r : Fin 20000) (j : Fin 256) :
    val_main_v90 (F := Ideal) x0 x1 x2 x3 x4 x5 x6 x7 x8 x9 x10 x11 (ix2 r j)
      = convAt (val_main_v74 (F := Ideal) x0 x1 x2 x3 x4 x5 x6 x7 x8) (val_main_v61 (F := Ideal) x0 x1 x2 x3 x4 x5 x6 x7 x8)
          (val_main_v80 (F := Ideal) x1) x9 x11 x10 z0 r j := by
  unfold val_main_v90 val_main_v89 val_main_v88 val_main_v87 val_main_v86 val_main_v85 val_main_v84 val_main_v83
    val_main_v82 val_main_v81 val_main_call2_v0 val_main_call2_cst
  exact convHost_at dot_S20000x256_S256x256_S20000x256_1_0_0_1_n_n rfl rfl lhs_main_v84_0 lhs_main_v84_1 rhs_main_v84_0
    rhs_main_v84_1 _ _ _ _ _ _ _ _ _ _ _ r j

/-! ## The closing stage -/

/-- A sum over 768 terms, taken as the first 256, the next 256 and the last 256. -/
theorem sum_three (G : Fin 768 → EReal) :
    ∑ k : Fin 768, G k = ((∑ k : Fin 256, G ⟨k.val, by omega⟩) + ∑ k : Fin 256, G ⟨k.val + 256, by omega⟩)
      + ∑ k : Fin 256, G ⟨k.val + 512, by omega⟩ := by
  have h1 := Cert.Lib.SplitContraction.sum_joined (M := EReal) 256 512 G (fun k => G ⟨k.val, by omega⟩)
    (fun k => G ⟨k.val + 256, by omega⟩) (fun k => rfl)
    (fun k => congrArg G (Fin.ext (by show 256 + k.val = k.val + 256; omega)))
  have h2 := Cert.Lib.SplitContraction.sum_joined (M := EReal) 256 256 (fun k : Fin (256 + 256) => G ⟨k.val + 256, by omega⟩)
    (fun k => G ⟨k.val + 256, by omega⟩) (fun k => G ⟨k.val + 512, by omega⟩) (fun k => rfl)
    (fun k => congrArg G (Fin.ext (by show (256 + k.val) + 256 = k.val + 512; omega)))
  exact h1.trans ((congrArg (fun s => (∑ k : Fin 256, G ⟨k.val, by omega⟩) + s) h2).trans (add_assoc _ _ _).symm)

/-- Three matrices of 256 columns laid side by side, read in piece `s` at column `k + 256·s`. -/
theorem joined_at (X1 X2 X3 : S20000x256.Idx → EReal)
    (h : Shape.Concatenates (([⟨S20000x256, X1⟩, ⟨S20000x256, X2⟩, ⟨S20000x256, X3⟩] : List ((s : Shape) × (s.Idx → EReal))).map (·.1)) S20000x768 1)
    (r : Fin 20000) (k : Fin 256) :
    concatenate S20000x768 1 [⟨S20000x256, X1⟩, ⟨S20000x256, X2⟩, ⟨S20000x256, X3⟩] h (ix2 r (⟨k.val, by omega⟩ : Fin 768)) = X1 (ix2 r k)
    ∧ concatenate S20000x768 1 [⟨S20000x256, X1⟩, ⟨S20000x256, X2⟩, ⟨S20000x256, X3⟩] h (ix2 r (⟨k.val + 256, by omega⟩ : Fin 768)) = X2 (ix2 r k)
    ∧ concatenate S20000x768 1 [⟨S20000x256, X1⟩, ⟨S20000x256, X2⟩, ⟨S20000x256, X3⟩] h (ix2 r (⟨k.val + 512, by omega⟩ : Fin 768)) = X3 (ix2 r k) := by
  have off : ∀ (kk : Fin 768) (b : Fin S20000x256.rank), b.cast (rfl : S20000x256.rank = S20000x768.rank) ≠ (1 : Fin 2) →
      ((ix2 r k : S20000x256.Idx) b).val = ((ix2 r kk : S20000x768.Idx) (b.cast rfl)).val := fun kk b hb => by
    match b with
    | ⟨0, _⟩ => rfl
    | ⟨1, _⟩ => exact absurd (Fin.ext rfl) hb
  refine ⟨?_, ?_, ?_⟩
  · exact concatenate_apply_piece (1 : Fin 2) [⟨S20000x256, X1⟩, ⟨S20000x256, X2⟩, ⟨S20000x256, X3⟩] h
      (ix2 r (⟨k.val, by omega⟩ : Fin 768)) 0 (by show (0 : ℕ) < 3; omega) S20000x256 X1 rfl rfl 0 rfl (ix2 r k)
      (off _) (by show 0 + k.val = k.val; omega)
  · exact concatenate_apply_piece (1 : Fin 2) [⟨S20000x256, X1⟩, ⟨S20000x256, X2⟩, ⟨S20000x256, X3⟩] h
      (ix2 r (⟨k.val + 256, by omega⟩ : Fin 768)) 1 (by show (1 : ℕ) < 3; omega) S20000x256 X2 rfl rfl 256 rfl (ix2 r k)
      (off _) (by show 256 + k.val = k.val + 256; omega)
  · exact concatenate_apply_piece (1 : Fin 2) [⟨S20000x256, X1⟩, ⟨S20000x256, X2⟩, ⟨S20000x256, X3⟩] h
      (ix2 r (⟨k.val + 512, by omega⟩ : Fin 768)) 2 (by show (2 : ℕ) < 3; omega) S20000x256 X3 rfl rfl 512 rfl (ix2 r k)
      (off _) (by show 512 + k.val = k.val + 512; omega)

/-- Rows 256·s … 256·s + 255 of the closing matrix. -/
def rows (W : S768x256.Idx → EReal) (s : Fin 3) : Mat 256 256 :=
  fun i => W (ix2 (⟨(i 0).val + 256 * s.val, by
      have h0 : (i 0).val < 256 := (i 0).isLt
      have := s.isLt
      omega⟩ : Fin 768) (⟨(i 1).val, (i 1).isLt⟩ : Fin 256))

/-- A bias vector as one row. -/
def biasRow (b : S256.Idx → EReal) : Mat 1 256 := fun i => b (ix1 (⟨(i 1).val, (i 1).isLt⟩ : Fin 256))

theorem final_at (x0 : (⟨S20000x14, .f32⟩ : BufTy).Contents (Elt Ideal)) (x1 : (⟨S2x320000, .i32⟩ : BufTy).Contents (Elt Ideal)) (x2 : (⟨S320000, .f32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) (x6 : (⟨S256x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) (x11 : (⟨S256x256, .f32⟩ : BufTy).Contents (Elt Ideal)) (x12 : (⟨S768x256, .f32⟩ : BufTy).Contents (Elt Ideal)) (x13 : (⟨S256, .f32⟩ : BufTy).Contents (Elt Ideal)) (r : Fin 20000) (j : Fin 256) :
    val_main_v95 (F := Ideal) x0 x1 x2 x3 x4 x5 x6 x7 x8 x9 x10 x11 x12 x13 (ix2 r j)
      = finalAt (val_main_v32 (F := Ideal) x0 x1 x2 x3 x4 x5) (val_main_v61 (F := Ideal) x0 x1 x2 x3 x4 x5 x6 x7 x8)
          (val_main_v90 (F := Ideal) x0 x1 x2 x3 x4 x5 x6 x7 x8 x9 x10 x11) (rows x12 0) (rows x12 1) (rows x12 2) (biasRow x13) r j := by
  unfold val_main_v95 val_main_v94 val_main_v93 val_main_v92 val_main_v91 finalAt
  rw [addf_apply]
  unfold Host.dotGeneral
  rw [Cert.Lib.DotGeneralAt.dotGeneral_at dot_S20000x768_S768x256_S20000x256_1_0_0_1_n_n rfl rfl lhs_main_v92_0 lhs_main_v92_1
    rhs_main_v92_0 rhs_main_v92_1, Cert.Lib.HostRowColumn.row_repeated, sum_three]
  have J := fun k : Fin 256 => joined_at (val_main_v32 (F := Ideal) x0 x1 x2 x3 x4 x5)
    (val_main_v61 (F := Ideal) x0 x1 x2 x3 x4 x5 x6 x7 x8) (val_main_v90 (F := Ideal) x0 x1 x2 x3 x4 x5 x6 x7 x8 x9 x10 x11)
    concatenates_S20000x256_S20000x256_S20000x256_S20000x768_d1 r k
  refine congrArg₂ (· + ·) (congrArg₂ (· + ·) (congrArg₂ (· + ·) ?_ ?_) ?_) ?_
  · exact Finset.sum_congr rfl fun k _ => congrArg₂ (· * ·) (J k).1 rfl
  · exact Finset.sum_congr rfl fun k _ => congrArg₂ (· * ·) (J k).2.1 rfl
  · exact Finset.sum_congr rfl fun k _ => congrArg₂ (· * ·) (J k).2.2 rfl
  · rfl

end Cert.ReferenceIdeal.Layers

end
-- ==== Proof.RefFacts.lean ====
/-
  The reference's three layers as whole matrices, and its clamped in-degree.

  Each layer's stage IS `conv` of its aggregation stage, the previous layer's stage, the clamped in-degree stage, its
  weights and bias (entry by entry: RefLayers.lean).  The program computes the clamped in-degree three times, once per
  layer, from the same edge list by the same operations: the three stages are one term.  Being a maximum with one, it
  is never zero.
-/
import proofs.«163192_j84086869721202_2_alg».proof.Proof.RefLayers

set_option maxRecDepth 16384

noncomputable section

namespace Cert.ReferenceIdeal.Layers

open Cert.ReferenceIdeal Cert.ReferenceIdeal.Gen Cert.ReferenceIdeal.Read Cert.GraphConv
open Idealize.ShloMosaic Idealize.ShloMosaic.ValueIdx

theorem layer1_eq (x0 : (⟨S20000x14, .f32⟩ : BufTy).Contents (Elt Ideal)) (x1 : (⟨S2x320000, .i32⟩ : BufTy).Contents (Elt Ideal)) (x2 : (⟨S320000, .f32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) :
    val_main_v32 (F := Ideal) x0 x1 x2 x3 x4 x5
      = conv (val_main_v16 (F := Ideal) x0 x1 x2) x0 (val_main_v22 (F := Ideal) x1) x3 x5 x4 z0 :=
  funext fun i => by
    obtain ⟨r, j, rfl⟩ : ∃ (r : Fin 20000) (j : Fin 256), i = ix2 r j := ⟨i 0, i 1, eq_ix2 i⟩
    exact layer1_at x0 x1 x2 x3 x4 x5 r j

theorem layer2_eq (x0 : (⟨S20000x14, .f32⟩ : BufTy).Contents (Elt Ideal)) (x1 : (⟨S2x320000, .i32⟩ : BufTy).Contents (Elt Ideal)) (x2 : (⟨S320000, .f32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) :
    val_main_v61 (F := Ideal) x0 x1 x2 x3 x4 x5 x6 x7 x8
      = conv (val_main_v45 (F := Ideal) x0 x1 x2 x3 x4 x5) (val_main_v32 (F := Ideal) x0 x1 x2 x3 x4 x5)
          (val_main_v51 (F := Ideal) x1) x6 x8 x7 z0 :=
  funext fun i => by
    obtain ⟨r, j, rfl⟩ : ∃ (r : Fin 20000) (j : Fin 256), i = ix2 r j := ⟨i 0, i 1, eq_ix2 i⟩
    exact layer2_at x0 x1 x2 x3 x4 x5 x6 x7 x8 r j

theorem layer3_eq (x0 : (⟨S20000x14, .f32⟩ : BufTy).Contents (Elt Ideal)) (x1 : (⟨S2x320000, .i32⟩ : BufTy).Contents (Elt Ideal)) (x2 : (⟨S320000, .f32⟩ : BufTy).Contents (Elt Ideal)) (x3 : (⟨S14x256, .f32⟩ : BufTy).Contents (Elt Ideal)) (x4 : (⟨S256, .f32⟩ : BufTy).Contents (Elt Ideal)) (x5 : (⟨S14x256, .f32⟩ : BufTy).Contents (Elt Ideal)) (x6 : (⟨S256x256, .f32⟩ : BufTy).Contents (Elt Ideal)) (x7 : (⟨S256, .f32⟩ : BufTy).Contents (Elt Ideal)) (x8 x9 : (⟨S256x256, .f32⟩ : BufTy).Contents (Elt Ideal)) (x10 : (⟨S256, .f32⟩ : BufTy).Contents (Elt Ideal)) (x11 : (⟨S256x256, .f32⟩ : BufTy).Contents (Elt Ideal)) :
    val_main_v90 (F := Ideal) x0 x1 x2 x3 x4 x5 x6 x7 x8 x9 x10 x11
      = conv (val_main_v74 (F := Ideal) x0 x1 x2 x3 x4 x5 x6 x7 x8) (val_main_v61 (F := Ideal) x0 x1 x2 x3 x4 x5 x6 x7 x8)
          (val_main_v80 (F := Ideal) x1) x9 x11 x10 z0 :=
  funext fun i => by
    obtain ⟨r, j, rfl⟩ : ∃ (r : Fin 20000) (j : Fin 256), i = ix2 r j := ⟨i 0, i 1, eq_ix2 i⟩
    exact layer3_at x0 x1 x2 x3 x4 x5 x6 x7 x8 x9 x10 x11 r j

/-- The second and third layers' clamped in-degree stages are the first layer's. -/
theorem deg2_eq (x1 : (⟨S2x320000, .i32⟩ : BufTy).Contents (Elt Ideal)) :
    val_main_v51 (F := Ideal) x1 = val_main_v22 (F := Ideal) x1 := rfl
theorem deg3_eq (x1 : (⟨S2x320000, .i32⟩ : BufTy).Contents (Elt Ideal)) :
    val_main_v80 (F := Ideal) x1 = val_main_v22 (F := Ideal) x1 := rfl

/-- The clamped in-degree is a maximum with one: never zero. -/
theorem deg_ne_zero (x1 : (⟨S2x320000, .i32⟩ : BufTy).Contents (Elt Ideal)) (r : Fin 20000) :
    val_main_v22 (F := Ideal) x1 (ix1 r) ≠ 0 := by
  rw [val_main_v22_apply, val_main_v21_apply, val_main_cst_3_apply]
  show max _ (Ideal.ofBits .f32 0x3F800000#32) ≠ 0
  rw [Ideal.ofBits_one_f32]
  exact clamp_ne_zero _

end Cert.ReferenceIdeal.Layers

end
-- ==== Proof.LayerBridge.lean ====
/-
  The two forms of a layer as whole matrices, and the last body against the closing map, for any sizes.

  `convKer_eq_conv`: a matrix whose every entry is the layer in its reciprocal form is the layer in its quotient form,
  given the three readings that join them — the reciprocal column is one over the clamped in-degree, the clamped
  in-degree is never zero, the bias row reads the bias vector.  `shapeCast_a_a1_apply`: a vector of a entries cast to a
  column [a, 1] reads, at (p, 0), its entry p.
-/
import Idealize.ShloMosaic.Lib.Pipeline.Value
import proofs.«163192_j84086869721202_2_alg».proof.Proof.Spec

noncomputable section

namespace Cert.GraphConv

open Idealize.ShloMosaic Idealize.ShloMosaic.ValueIdx

variable {n K d : ℕ}

theorem convKer_eq_conv (agg X : Mat n K) (inv : Mat n 1) (cm : Vct n) (Wr Wo : Mat K d) (bK : Mat 1 d) (b : Vct d) (z : EReal)
    (hinv : ∀ (r : Fin n) (k : Fin 1), inv (ix2 r k) = Ideal.div 1 (cm (ix1 r))) (hcm : ∀ r : Fin n, cm (ix1 r) ≠ 0)
    (hb : ∀ (k : Fin 1) (j : Fin d), bK (ix2 k j) = b (ix1 j)) :
    (fun i : (⟨2, ![n, d]⟩ : Shape).Idx => convKerAt agg X inv Wr Wo bK z (i 0) (i 1)) = conv agg X cm Wr Wo b z :=
  funext fun i => convKerAt_eq agg X inv cm Wr Wo bK b z (i 0) (i 1) (hinv _ 0) (hcm _) (hb 0 _)

/-- A vector of `a` entries cast to a column `[a, 1]` reads, at `(p, k)`, its entry `p`. -/
theorem shapeCast_a_a1_apply {α : Type} {a : ℕ} (x : (⟨1, ![a]⟩ : Shape).Idx → α)
    (h : (⟨1, ![a]⟩ : Shape).ShapeCasts ⟨2, ![a, 1]⟩) (p : Fin a) (k : Fin 1) :
    shapeCast ⟨2, ![a, 1]⟩ x h (ix2 p k) = x (ix1 p) :=
  shapeCast_apply x h _ _ (by
    have hk : k.val = 0 := by omega
    rw [Shape.rowMajor_val_two, Shape.rowMajor_val_one]
    show p.val = p.val * 1 + k.val
    omega)

end Cert.GraphConv

end
-- ==== Proof.KerChain1.lean ====
/-
  The kernel program up to the end of its first region, in the reference's vocabulary.

  Before region 0 the host has sliced the edge list into sources and destinations, counted the edges entering each
  node, clamped the count at one and taken its reciprocal (a column), gathered the source nodes' features, weighted
  them and summed them per destination (the first aggregation), and changed the format of the first layer's weights
  (the identity on extended reals) and the shape of its bias (a row).  Each of these arrays is the reference's own
  stage of the same name or a reading of it: the operations are the same text.  So region 0's output array — the layer
  in its reciprocal form of those arrays — is the reference's first layer stage (`x1_eq`).  What region 0 does not write
  it leaves as it found it (`w2_…`).
-/
import proofs.«163192_j84086869721202_2_alg».proof.Proof.KerArray0
import proofs.«163192_j84086869721202_2_alg».proof.Proof.RefFacts
import proofs.«163192_j84086869721202_2_alg».proof.Proof.LayerBridge
import Idealize.ShloMosaic.Lib.ValueLayout

set_option maxRecDepth 16384

noncomputable section

namespace Cert.Chain

open Cert.KernelIdeal Cert.KernelIdeal.Gen Cert.KernelIdeal.Arrays Cert.GraphConv
open Cert.ReferenceIdeal.Read Cert.ReferenceIdeal.Layers
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

-- the argument arrays as launched, named once (the names stand for terms over `m` and `c` of the statement at hand)
set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)

/-! ## What region 0 finds -/

theorem v1_v25 : V1 m ρ c main_v25 = val_main_v16 (F := Ideal) a0 a1 a2 := by
  show StableHlo.after hostOps0 (W0 m ρ c) (Proc.devRef .tc main_v25) = _
  after_results_simp <;> rfl

/-- The reciprocal column reads one over the reference's clamped in-degree. -/
theorem v1_v12 (r : Fin 20000) (k : Fin 1) :
    V1 m ρ c main_v12 (ix2 r k) = Ideal.div 1 (val_main_v22 (F := Ideal) a1 (ix1 r)) := by
  show StableHlo.after hostOps0 (W0 m ρ c) (Proc.devRef .tc main_v12) (ix2 r k) = _
  after_results_simp
  refine (shapeCast_a_a1_apply _ _ r k).trans ?_
  rw [hostDivf_apply, broadcastInDim_scalar_apply, constant_apply, Ideal.ofBits_one_f32]
  rfl

/-- The reciprocal column as region 0 finds it; every later region stages the same array. -/
def inv : Vec Ideal S20000x1 .f32 := V1 m ρ c main_v12

theorem inv_at (r : Fin 20000) (k : Fin 1) :
    inv m ρ c (ix2 r k) = Ideal.div 1 (val_main_v22 (F := Ideal) a1 (ix1 r)) := v1_v12 m ρ c r k

theorem v1_arg0 : V1 m ρ c main_arg0 = a0 := by
  show StableHlo.after hostOps0 (W0 m ρ c) (Proc.devRef .tc main_arg0) = _
  after_results_simp <;> rfl
theorem v1_v26 : V1 m ρ c main_v26 = a3 := by
  show StableHlo.after hostOps0 (W0 m ρ c) (Proc.devRef .tc main_v26) = _
  after_results_simp <;> rfl
theorem v1_v27 : V1 m ρ c main_v27 = a5 := by
  show StableHlo.after hostOps0 (W0 m ρ c) (Proc.devRef .tc main_v27) = _
  after_results_simp <;> rfl
/-- The bias row reads the bias vector. -/
theorem v1_v28 (k : Fin 1) (j : Fin 256) : V1 m ρ c main_v28 (ix2 k j) = a4 (ix1 j) := by
  show StableHlo.after hostOps0 (W0 m ρ c) (Proc.devRef .tc main_v28) (ix2 k j) = _
  after_results_simp
  exact shapeCast_a_1a_apply _ _ k j
theorem v1_v1 : V1 m ρ c main_v1 = val_main_v1 (F := Ideal) a1 := by
  show StableHlo.after hostOps0 (W0 m ρ c) (Proc.devRef .tc main_v1) = _
  after_results_simp <;> rfl
theorem v1_v3 : V1 m ρ c main_v3 = val_main_v3 (F := Ideal) a1 := by
  show StableHlo.after hostOps0 (W0 m ρ c) (Proc.devRef .tc main_v3) = _
  after_results_simp <;> rfl
theorem v1_arg2 : V1 m ρ c main_arg2 = a2 := by
  show StableHlo.after hostOps0 (W0 m ρ c) (Proc.devRef .tc main_arg2) = _
  after_results_simp <;> rfl
theorem v1_arg6 : V1 m ρ c main_arg6 = a6 := by
  show StableHlo.after hostOps0 (W0 m ρ c) (Proc.devRef .tc main_arg6) = _
  after_results_simp <;> rfl
theorem v1_arg7 : V1 m ρ c main_arg7 = a7 := by
  show StableHlo.after hostOps0 (W0 m ρ c) (Proc.devRef .tc main_arg7) = _
  after_results_simp <;> rfl
theorem v1_arg8 : V1 m ρ c main_arg8 = a8 := by
  show StableHlo.after hostOps0 (W0 m ρ c) (Proc.devRef .tc main_arg8) = _
  after_results_simp <;> rfl
theorem v1_arg9 : V1 m ρ c main_arg9 = a9 := by
  show StableHlo.after hostOps0 (W0 m ρ c) (Proc.devRef .tc main_arg9) = _
  after_results_simp <;> rfl
theorem v1_arg10 : V1 m ρ c main_arg10 = a10 := by
  show StableHlo.after hostOps0 (W0 m ρ c) (Proc.devRef .tc main_arg10) = _
  after_results_simp <;> rfl
theorem v1_arg11 : V1 m ρ c main_arg11 = a11 := by
  show StableHlo.after hostOps0 (W0 m ρ c) (Proc.devRef .tc main_arg11) = _
  after_results_simp <;> rfl
theorem v1_arg12 : V1 m ρ c main_arg12 = a12 := by
  show StableHlo.after hostOps0 (W0 m ρ c) (Proc.devRef .tc main_arg12) = _
  after_results_simp <;> rfl
theorem v1_arg13 : V1 m ρ c main_arg13 = a13 := by
  show StableHlo.after hostOps0 (W0 m ρ c) (Proc.devRef .tc main_arg13) = _
  after_results_simp <;> rfl

/-! ## The first layer's output array is the reference's first layer -/

theorem x1_eq : W2 m ρ c (Proc.devRef .tc main_v29) = val_main_v32 (F := Ideal) a0 a1 a2 a3 a4 a5 := by
  refine (W2_arr m ρ c 6).trans ((array0 (V1 m ρ) c).trans ?_)
  rw [v1_v25 m ρ c, v1_arg0 m ρ c, v1_v26 m ρ c, v1_v27 m ρ c, layer1_eq]
  exact convKer_eq_conv _ _ _ _ _ _ _ _ _ (fun r k => v1_v12 m ρ c r k) (deg_ne_zero _) (fun k j => v1_v28 m ρ c k j)

/-! ## What region 0 leaves as it found it -/

theorem w2_v12 : W2 m ρ c (Proc.devRef .tc main_v12) = inv m ρ c :=
  (W2_arr m ρ c 1).trans (((dat0 (V1 m ρ) c).arrAt_in 1 rfl _).trans (A_eq0 (V1 m ρ) c 1))
theorem w2_v1 : W2 m ρ c (Proc.devRef .tc main_v1) = val_main_v1 (F := Ideal) a1 :=
  (W2_of_ne m ρ c main_v1 (by decide)).trans (v1_v1 m ρ c)
theorem w2_v3 : W2 m ρ c (Proc.devRef .tc main_v3) = val_main_v3 (F := Ideal) a1 :=
  (W2_of_ne m ρ c main_v3 (by decide)).trans (v1_v3 m ρ c)
theorem w2_arg2 : W2 m ρ c (Proc.devRef .tc main_arg2) = a2 := (W2_of_ne m ρ c main_arg2 (by decide)).trans (v1_arg2 m ρ c)
theorem w2_arg6 : W2 m ρ c (Proc.devRef .tc main_arg6) = a6 := (W2_of_ne m ρ c main_arg6 (by decide)).trans (v1_arg6 m ρ c)
theorem w2_arg7 : W2 m ρ c (Proc.devRef .tc main_arg7) = a7 := (W2_of_ne m ρ c main_arg7 (by decide)).trans (v1_arg7 m ρ c)
theorem w2_arg8 : W2 m ρ c (Proc.devRef .tc main_arg8) = a8 := (W2_of_ne m ρ c main_arg8 (by decide)).trans (v1_arg8 m ρ c)
theorem w2_arg9 : W2 m ρ c (Proc.devRef .tc main_arg9) = a9 := (W2_of_ne m ρ c main_arg9 (by decide)).trans (v1_arg9 m ρ c)
theorem w2_arg10 : W2 m ρ c (Proc.devRef .tc main_arg10) = a10 := (W2_of_ne m ρ c main_arg10 (by decide)).trans (v1_arg10 m ρ c)
theorem w2_arg11 : W2 m ρ c (Proc.devRef .tc main_arg11) = a11 := (W2_of_ne m ρ c main_arg11 (by decide)).trans (v1_arg11 m ρ c)
theorem w2_arg12 : W2 m ρ c (Proc.devRef .tc main_arg12) = a12 := (W2_of_ne m ρ c main_arg12 (by decide)).trans (v1_arg12 m ρ c)
theorem w2_arg13 : W2 m ρ c (Proc.devRef .tc main_arg13) = a13 := (W2_of_ne m ρ c main_arg13 (by decide)).trans (v1_arg13 m ρ c)

end Cert.Chain

end
-- ==== Proof.KerArray1.lean ====
/-
  Region 1's output array as one function of the arrays the region finds.

  As in region 0, now at width 256: point t stages rows 2000·t … 2000·t + 1999 of the second aggregation, of the
  reciprocal clamped in-degrees and of the first layer's output, the whole of both weight matrices and of the bias
  row, and writes back the same rows of the second layer's output.  The ten blocks tile the 20000 rows, so the array
  ends holding the layer in its reciprocal form at every node (`conv1`).
-/
import proofs.«163192_j84086869721202_2_alg».proof.Proof.KerBodies
import Idealize.ShloMosaic.Lib.Pipeline.Value

set_option maxRecDepth 16384

noncomputable section

namespace Cert.KernelIdeal.Arrays

open Cert.KernelIdeal Cert.KernelIdeal.Gen Cert.KernelIdeal.Bodies Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `p` of point `t`'s block is row `2000·t + p` of the array. -/
def row1 (t : Fin cfg1.N) (p : Fin 2000) : Fin 20000 :=
  ⟨t.val * 2000 + p.val, by have := t.isLt; have := p.isLt; have h : cfg1.N = 10 := N_1; omega⟩

/-- The printed index maps over the grid: the row-wise windows move with the point, the others stay. -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = t.val ∧ win1_6.index t (1 : Fin 2) = 0 :=
  (by decide +kernel : ∀ t : Fin grid1.N, _)

/-! ## Each input block, read where the array holds it -/

theorem blk1_0 (c : Dev nD) (t : Fin cfg1.N) (p : Fin 2000) (k : Fin 256) :
    iblk1 V c 0 t (ix2 p k) = V c main_v43 (ix2 (row1 t p) k) := by
  show V c main_v43 (((cfg1.win 0).blk t).view.emb (ix2 p k)) = _
  refine congrArg _ (funext fun a => Fin.ext ?_)
  obtain ⟨e0, e1, -⟩ := idx1 t
  match a with
  | ⟨0, _⟩ => show win1_0.index t (0 : Fin 2) * 2000 + 1 * p.val = t.val * 2000 + p.val; omega
  | ⟨1, _⟩ => show win1_0.index t (1 : Fin 2) * 256 + 1 * k.val = k.val; omega

theorem blk1_1 (c : Dev nD) (t : Fin cfg1.N) (p : Fin 2000) (k : Fin 1) :
    iblk1 V c 1 t (ix2 p k) = V c main_v12 (ix2 (row1 t p) k) := by
  show V c main_v12 (((cfg1.win 1).blk t).view.emb (ix2 p k)) = _
  refine congrArg _ (funext fun a => Fin.ext ?_)
  obtain ⟨-, -, e0, e1, -⟩ := idx1 t
  match a with
  | ⟨0, _⟩ => show win1_1.index t (0 : Fin 2) * 2000 + 1 * p.val = t.val * 2000 + p.val; omega
  | ⟨1, _⟩ => show win1_1.index t (1 : Fin 2) * 1 + 1 * k.val = k.val; omega

theorem blk1_2 (c : Dev nD) (t : Fin cfg1.N) (p : Fin 2000) (k : Fin 256) :
    iblk1 V c 2 t (ix2 p k) = V c main_v29 (ix2 (row1 t p) k) := by
  show V c main_v29 (((cfg1.win 2).blk t).view.emb (ix2 p k)) = _
  refine congrArg _ (funext fun a => Fin.ext ?_)
  obtain ⟨-, -, -, -, e0, e1, -⟩ := idx1 t
  match a with
  | ⟨0, _⟩ => show win1_2.index t (0 : Fin 2) * 2000 + 1 * p.val = t.val * 2000 + p.val; omega
  | ⟨1, _⟩ => show win1_2.index t (1 : Fin 2) * 256 + 1 * k.val = k.val; omega

theorem blk1_3 (c : Dev nD) (t : Fin cfg1.N) (k : Fin 256) (j : Fin 256) :
    iblk1 V c 3 t (ix2 k j) = V c main_v44 (ix2 k j) := by
  show V c main_v44 (((cfg1.win 3).blk t).view.emb (ix2 k j)) = _
  refine congrArg _ (funext fun a => Fin.ext ?_)
  obtain ⟨-, -, -, -, -, -, e0, e1, -⟩ := idx1 t
  match a with
  | ⟨0, _⟩ => show win1_3.index t (0 : Fin 2) * 256 + 1 * k.val = k.val; omega
  | ⟨1, _⟩ => show win1_3.index t (1 : Fin 2) * 256 + 1 * j.val = j.val; omega

theorem blk1_4 (c : Dev nD) (t : Fin cfg1.N) (k : Fin 256) (j : Fin 256) :
    iblk1 V c 4 t (ix2 k j) = V c main_v45 (ix2 k j) := by
  show V c main_v45 (((cfg1.win 4).blk t).view.emb (ix2 k j)) = _
  refine congrArg _ (funext fun a => Fin.ext ?_)
  obtain ⟨-, -, -, -, -, -, -, -, e0, e1, -⟩ := idx1 t
  match a with
  | ⟨0, _⟩ => show win1_4.index t (0 : Fin 2) * 256 + 1 * k.val = k.val; omega
  | ⟨1, _⟩ => show win1_4.index t (1 : Fin 2) * 256 + 1 * j.val = j.val; omega

theorem blk1_5 (c : Dev nD) (t : Fin cfg1.N) (k : Fin 1) (j : Fin 256) :
    iblk1 V c 5 t (ix2 k j) = V c main_v46 (ix2 k j) := by
  show V c main_v46 (((cfg1.win 5).blk t).view.emb (ix2 k j)) = _
  refine congrArg _ (funext fun a => Fin.ext ?_)
  obtain ⟨-, -, -, -, -, -, -, -, -, -, e0, e1, -⟩ := idx1 t
  match a with
  | ⟨0, _⟩ => show win1_5.index t (0 : Fin 2) * 1 + 1 * k.val = k.val; omega
  | ⟨1, _⟩ => show win1_5.index t (1 : Fin 2) * 256 + 1 * j.val = j.val; omega

/-- Where point `t`'s output block sits in the array. -/
theorem emb1_6 (t : Fin cfg1.N) (p : Fin 2000) (j : Fin 256) :
    ((cfg1.win 6).blk t).view.emb (ix2 p j) = ix2 (row1 t p) j := by
  refine funext fun a => Fin.ext ?_
  obtain ⟨-, -, -, -, -, -, -, -, -, -, -, -, e0, e1⟩ := idx1 t
  match a with
  | ⟨0, _⟩ => show win1_6.index t (0 : Fin 2) * 2000 + 1 * p.val = t.val * 2000 + p.val; omega
  | ⟨1, _⟩ => show win1_6.index t (1 : Fin 2) * 256 + 1 * j.val = j.val; omega

/-! ## The whole-array function, what a point writes back, the cover, the array -/

/-- The layer at width 256 in its reciprocal form, at every node. -/
def conv1 (A : Vec Ideal S20000x256 .f32) (I : Vec Ideal S20000x1 .f32) (X : Vec Ideal S20000x256 .bf16)
    (Wr Wo : Vec Ideal S256x256 .bf16) (B : Vec Ideal S1x256 .f32) : Vec Ideal S20000x256 .bf16 :=
  fun i => convKerAt A X I Wr Wo B z0 (i 0) (i 1)

/-- What point `t` writes back is block `t` of that function of the arrays as the region finds them. -/
theorem flushed1 (c : Dev nD) (t : Fin cfg1.N) :
    (dat1 V c).flushed 6 t = ((cfg1.win 6).blk t).view.read (Elt Ideal)
      (conv1 (V c main_v43) (V c main_v12) (V c main_v29) (V c main_v44) (V c main_v45) (V c main_v46)) := by
  show (cfg1.win 6).cut (grid1.coords t) ((dat1 V c).after 6 t) = _
  rw [after1_6]
  funext y
  obtain ⟨p, j, rfl⟩ : ∃ (p : Fin 2000) (j : Fin 256), y = ix2 p j := ⟨y 0, y 1, eq_ix2 y⟩
  show out1_6 (iblk1 V c 0 t) (iblk1 V c 1 t) (iblk1 V c 2 t) (iblk1 V c 3 t) (iblk1 V c 4 t) (iblk1 V c 5 t) (ix2 p j)
    = conv1 (V c main_v43) (V c main_v12) (V c main_v29) (V c main_v44) (V c main_v45) (V c main_v46)
        (((cfg1.win 6).blk t).view.emb (ix2 p j))
  rw [out1_6_at, emb1_6]
  show convKerAt _ _ _ _ _ _ z0 p j = convKerAt _ _ _ _ _ _ z0 (row1 t p) j
  unfold convKerAt
  simp only [blk1_0, blk1_1, blk1_2, blk1_3, blk1_4, blk1_5]

/-- An index of the array is in point `t`'s block iff each coordinate is in the block's range on its axis. -/
theorem mem_blk1 (t : Fin cfg1.N) (i : S20000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v47).slice (win1_6.rect t)).set ↔ _
  rw [View.set_slice_whole, Rect.mem_set_unit]
  exact Iff.rfl

/-- Row `r` lies in the block of point `r / 2000`: the ten blocks tile the array. -/
theorem cover1 (i : S20000x256.Idx) :
    ∃ t : Fin cfg1.N, (cfg1.win 6).flush t = true ∧ i ∈ ((cfg1.win 6).blk t).view.set := by
  have hi0 : (i 0).val < 20000 := (i 0).isLt
  have hi1 : (i 1).val < 256 := (i 1).isLt
  have hN : cfg1.N = 10 := N_1
  let t : Fin cfg1.N := ⟨(i 0).val / 2000, by omega⟩
  obtain ⟨-, -, -, -, -, -, -, -, -, -, -, -, e0, e1⟩ := idx1 t
  have ht : t.val = (i 0).val / 2000 := rfl
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- Region 1's output array after its ten points. -/
theorem array1 (c : Dev nD) :
    (dat1 V c).arrAt 6 cfg1.N
      = conv1 (V c main_v43) (V c main_v12) (V c main_v29) (V c main_v44) (V c main_v45) (V c main_v46) :=
  (dat1 V c).arrAt_eq_of_cover 6 _ (fun t _ => flushed1 V c t) cover1

end Cert.KernelIdeal.Arrays

end
-- ==== Proof.KerChain2.lean ====
/-
  The kernel program from the end of its first region to the end of its second, in the reference's vocabulary.

  Between the regions the host gathers the first layer's output at the source nodes, weights it and sums it per
  destination: the second aggregation, the reference's own stage (the same text applied to the same first layer,
  the format change being the identity).  Region 1 finds that, the reciprocal column unchanged, the first layer's
  output, and the second layer's weights and bias row; so its output array — the layer in its reciprocal form of
  those — is the reference's second layer stage (`x2_eq`; the reference's second clamped in-degree is its first).
  What region 1 does not write it leaves as it found it (`w4_…`).
-/
import proofs.«163192_j84086869721202_2_alg».proof.Proof.KerChain1
import proofs.«163192_j84086869721202_2_alg».proof.Proof.KerArray1

set_option maxRecDepth 16384

noncomputable section

namespace Cert.Chain

open Cert.KernelIdeal Cert.KernelIdeal.Gen Cert.KernelIdeal.Arrays Cert.GraphConv
open Cert.ReferenceIdeal.Read Cert.ReferenceIdeal.Layers
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

-- the argument arrays as launched, named once (the names stand for terms over `m` and `c` of the statement at hand)
set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)

/-! ## What region 1 finds -/

theorem v3_v43 : V3 m ρ c main_v43 = val_main_v45 (F := Ideal) a0 a1 a2 a3 a4 a5 := by
  show StableHlo.after hostOps1 (W2 m ρ c) (Proc.devRef .tc main_v43) = _
  after_results_simp
  rw [x1_eq m ρ c, w2_v1 m ρ c, w2_v3 m ρ c, w2_arg2 m ρ c]
  rfl

theorem v3_v12 : V3 m ρ c main_v12 = inv m ρ c := by
  show StableHlo.after hostOps1 (W2 m ρ c) (Proc.devRef .tc main_v12) = _
  after_results_simp
  exact w2_v12 m ρ c
theorem v3_v29 : V3 m ρ c main_v29 = val_main_v32 (F := Ideal) a0 a1 a2 a3 a4 a5 := by
  show StableHlo.after hostOps1 (W2 m ρ c) (Proc.devRef .tc main_v29) = _
  after_results_simp
  exact x1_eq m ρ c
theorem v3_v44 : V3 m ρ c main_v44 = a6 := by
  show StableHlo.after hostOps1 (W2 m ρ c) (Proc.devRef .tc main_v44) = _
  after_results_simp
  rw [w2_arg6 m ρ c]
  rfl
theorem v3_v45 : V3 m ρ c main_v45 = a8 := by
  show StableHlo.after hostOps1 (W2 m ρ c) (Proc.devRef .tc main_v45) = _
  after_results_simp
  rw [w2_arg8 m ρ c]
  rfl
/-- The bias row reads the bias vector. -/
theorem v3_v46 (k : Fin 1) (j : Fin 256) : V3 m ρ c main_v46 (ix2 k j) = a7 (ix1 j) := by
  show StableHlo.after hostOps1 (W2 m ρ c) (Proc.devRef .tc main_v46) (ix2 k j) = _
  after_results_simp
  rw [w2_arg7 m ρ c]
  exact shapeCast_a_1a_apply _ _ k j
theorem v3_v1 : V3 m ρ c main_v1 = val_main_v1 (F := Ideal) a1 := by
  show StableHlo.after hostOps1 (W2 m ρ c) (Proc.devRef .tc main_v1) = _
  after_results_simp
  exact w2_v1 m ρ c
theorem v3_v3 : V3 m ρ c main_v3 = val_main_v3 (F := Ideal) a1 := by
  show StableHlo.after hostOps1 (W2 m ρ c) (Proc.devRef .tc main_v3) = _
  after_results_simp
  exact w2_v3 m ρ c
theorem v3_arg2 : V3 m ρ c main_arg2 = a2 := by
  show StableHlo.after hostOps1 (W2 m ρ c) (Proc.devRef .tc main_arg2) = _
  after_results_simp
  exact w2_arg2 m ρ c
theorem v3_arg9 : V3 m ρ c main_arg9 = a9 := by
  show StableHlo.after hostOps1 (W2 m ρ c) (Proc.devRef .tc main_arg9) = _
  after_results_simp
  exact w2_arg9 m ρ c
theorem v3_arg10 : V3 m ρ c main_arg10 = a10 := by
  show StableHlo.after hostOps1 (W2 m ρ c) (Proc.devRef .tc main_arg10) = _
  after_results_simp
  exact w2_arg10 m ρ c
theorem v3_arg11 : V3 m ρ c main_arg11 = a11 := by
  show StableHlo.after hostOps1 (W2 m ρ c) (Proc.devRef .tc main_arg11) = _
  after_results_simp
  exact w2_arg11 m ρ c
theorem v3_arg12 : V3 m ρ c main_arg12 = a12 := by
  show StableHlo.after hostOps1 (W2 m ρ c) (Proc.devRef .tc main_arg12) = _
  after_results_simp
  exact w2_arg12 m ρ c
theorem v3_arg13 : V3 m ρ c main_arg13 = a13 := by
  show StableHlo.after hostOps1 (W2 m ρ c) (Proc.devRef .tc main_arg13) = _
  after_results_simp
  exact w2_arg13 m ρ c

/-! ## The second layer's output array is the reference's second layer -/

theorem x2_eq : W4 m ρ c (Proc.devRef .tc main_v47) = val_main_v61 (F := Ideal) a0 a1 a2 a3 a4 a5 a6 a7 a8 := by
  refine (W4_arr m ρ c 6).trans ((array1 (V3 m ρ) c).trans ?_)
  rw [v3_v43 m ρ c, v3_v12 m ρ c, v3_v29 m ρ c, v3_v44 m ρ c, v3_v45 m ρ c, layer2_eq, deg2_eq]
  exact convKer_eq_conv _ _ _ _ _ _ _ _ _ (fun r k => inv_at m ρ c r k) (deg_ne_zero _) (fun k j => v3_v46 m ρ c k j)

/-! ## What region 1 leaves as it found it -/

theorem w4_v12 : W4 m ρ c (Proc.devRef .tc main_v12) = inv m ρ c :=
  (W4_arr m ρ c 1).trans (((dat1 (V3 m ρ) c).arrAt_in 1 rfl _).trans ((A_eq1 (V3 m ρ) c 1).trans (v3_v12 m ρ c)))
theorem w4_v29 : W4 m ρ c (Proc.devRef .tc main_v29) = val_main_v32 (F := Ideal) a0 a1 a2 a3 a4 a5 :=
  (W4_arr m ρ c 2).trans (((dat1 (V3 m ρ) c).arrAt_in 2 rfl _).trans ((A_eq1 (V3 m ρ) c 2).trans (v3_v29 m ρ c)))
theorem w4_v1 : W4 m ρ c (Proc.devRef .tc main_v1) = val_main_v1 (F := Ideal) a1 :=
  (W4_of_ne m ρ c main_v1 (by decide)).trans (v3_v1 m ρ c)
theorem w4_v3 : W4 m ρ c (Proc.devRef .tc main_v3) = val_main_v3 (F := Ideal) a1 :=
  (W4_of_ne m ρ c main_v3 (by decide)).trans (v3_v3 m ρ c)
theorem w4_arg2 : W4 m ρ c (Proc.devRef .tc main_arg2) = a2 := (W4_of_ne m ρ c main_arg2 (by decide)).trans (v3_arg2 m ρ c)
theorem w4_arg9 : W4 m ρ c (Proc.devRef .tc main_arg9) = a9 := (W4_of_ne m ρ c main_arg9 (by decide)).trans (v3_arg9 m ρ c)
theorem w4_arg10 : W4 m ρ c (Proc.devRef .tc main_arg10) = a10 := (W4_of_ne m ρ c main_arg10 (by decide)).trans (v3_arg10 m ρ c)
theorem w4_arg11 : W4 m ρ c (Proc.devRef .tc main_arg11) = a11 := (W4_of_ne m ρ c main_arg11 (by decide)).trans (v3_arg11 m ρ c)
theorem w4_arg12 : W4 m ρ c (Proc.devRef .tc main_arg12) = a12 := (W4_of_ne m ρ c main_arg12 (by decide)).trans (v3_arg12 m ρ c)
theorem w4_arg13 : W4 m ρ c (Proc.devRef .tc main_arg13) = a13 := (W4_of_ne m ρ c main_arg13 (by decide)).trans (v3_arg13 m ρ c)

end Cert.Chain

end
-- ==== Proof.KerArray2.lean ====
/-
  Region 2's output array — the program's result — as one function of the arrays the region finds.

  Point t stages rows 2000·t … 2000·t + 1999 of the third aggregation, of the reciprocal clamped in-degrees and of the
  first two layers' outputs, and the whole of the third layer's two weight matrices and bias row and of the closing
  map's three row blocks and bias row; it writes back the same rows of the result.  A result row depends only on the
  same row of the four row-wise inputs, so the block point t writes is rows 2000·t … of ONE whole-array function
  (`fin2`: the third layer formed on the spot, then the closing map piece by piece), and the ten blocks tile the rows.
-/
import proofs.«163192_j84086869721202_2_alg».proof.Proof.KerBodies
import Idealize.ShloMosaic.Lib.Pipeline.Value

set_option maxRecDepth 16384

noncomputable section

namespace Cert.KernelIdeal.Arrays

open Cert.KernelIdeal Cert.KernelIdeal.Gen Cert.KernelIdeal.Bodies Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row `p` of point `t`'s block is row `2000·t + p` of the array. -/
def row2 (t : Fin cfg2.N) (p : Fin 2000) : Fin 20000 :=
  ⟨t.val * 2000 + p.val, by have := t.isLt; have := p.isLt; have h : cfg2.N = 10 := N_2; omega⟩

/-- The printed index maps over the grid: the four row-wise inputs and the output move with the point. -/
theorem idx2r : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = t.val ∧ win2_2.index t (1 : Fin 2) = 0
  ∧ win2_3.index t (0 : Fin 2) = t.val ∧ win2_3.index t (1 : Fin 2) = 0
  ∧ win2_11.index t (0 : Fin 2) = t.val ∧ win2_11.index t (1 : Fin 2) = 0 :=
  (by decide +kernel : ∀ t : Fin grid2.N, _)

/-- The seven resident windows stay at their one block. -/
theorem idx2w : ∀ t : Fin cfg2.N,
    win2_4.index t (0 : Fin 2) = 0 ∧ win2_4.index t (1 : Fin 2) = 0
  ∧ win2_5.index t (0 : Fin 2) = 0 ∧ win2_5.index t (1 : Fin 2) = 0
  ∧ win2_6.index t (0 : Fin 2) = 0 ∧ win2_6.index t (1 : Fin 2) = 0
  ∧ win2_7.index t (0 : Fin 2) = 0 ∧ win2_7.index t (1 : Fin 2) = 0
  ∧ win2_8.index t (0 : Fin 2) = 0 ∧ win2_8.index t (1 : Fin 2) = 0
  ∧ win2_9.index t (0 : Fin 2) = 0 ∧ win2_9.index t (1 : Fin 2) = 0
  ∧ win2_10.index t (0 : Fin 2) = 0 ∧ win2_10.index t (1 : Fin 2) = 0 :=
  (by decide +kernel : ∀ t : Fin grid2.N, _)

/-! ## Each input block, read where the array holds it -/

theorem blk2_0 (c : Dev nD) (t : Fin cfg2.N) (p : Fin 2000) (k : Fin 256) :
    iblk2 V c 0 t (ix2 p k) = V c main_v61 (ix2 (row2 t p) k) := by
  show V c main_v61 (((cfg2.win 0).blk t).view.emb (ix2 p k)) = _
  refine congrArg _ (funext fun a => Fin.ext ?_)
  obtain ⟨e0, e1, -⟩ := idx2r t
  match a with
  | ⟨0, _⟩ => show win2_0.index t (0 : Fin 2) * 2000 + 1 * p.val = t.val * 2000 + p.val; omega
  | ⟨1, _⟩ => show win2_0.index t (1 : Fin 2) * 256 + 1 * k.val = k.val; omega

theorem blk2_1 (c : Dev nD) (t : Fin cfg2.N) (p : Fin 2000) (k : Fin 1) :
    iblk2 V c 1 t (ix2 p k) = V c main_v12 (ix2 (row2 t p) k) := by
  show V c main_v12 (((cfg2.win 1).blk t).view.emb (ix2 p k)) = _
  refine congrArg _ (funext fun a => Fin.ext ?_)
  obtain ⟨-, -, e0, e1, -⟩ := idx2r t
  match a with
  | ⟨0, _⟩ => show win2_1.index t (0 : Fin 2) * 2000 + 1 * p.val = t.val * 2000 + p.val; omega
  | ⟨1, _⟩ => show win2_1.index t (1 : Fin 2) * 1 + 1 * k.val = k.val; omega

theorem blk2_2 (c : Dev nD) (t : Fin cfg2.N) (p : Fin 2000) (k : Fin 256) :
    iblk2 V c 2 t (ix2 p k) = V c main_v47 (ix2 (row2 t p) k) := by
  show V c main_v47 (((cfg2.win 2).blk t).view.emb (ix2 p k)) = _
  refine congrArg _ (funext fun a => Fin.ext ?_)
  obtain ⟨-, -, -, -, e0, e1, -⟩ := idx2r t
  match a with
  | ⟨0, _⟩ => show win2_2.index t (0 : Fin 2) * 2000 + 1 * p.val = t.val * 2000 + p.val; omega
  | ⟨1, _⟩ => show win2_2.index t (1 : Fin 2) * 256 + 1 * k.val = k.val; omega

theorem blk2_3 (c : Dev nD) (t : Fin cfg2.N) (p : Fin 2000) (k : Fin 256) :
    iblk2 V c 3 t (ix2 p k) = V c main_v29 (ix2 (row2 t p) k) := by
  show V c main_v29 (((cfg2.win 3).blk t).view.emb (ix2 p k)) = _
  refine congrArg _ (funext fun a => Fin.ext ?_)
  obtain ⟨-, -, -, -, -, -, e0, e1, -⟩ := idx2r t
  match a with
  | ⟨0, _⟩ => show win2_3.index t (0 : Fin 2) * 2000 + 1 * p.val = t.val * 2000 + p.val; omega
  | ⟨1, _⟩ => show win2_3.index t (1 : Fin 2) * 256 + 1 * k.val = k.val; omega

theorem blk2_4 (c : Dev nD) (t : Fin cfg2.N) (k : Fin 256) (j : Fin 256) :
    iblk2 V c 4 t (ix2 k j) = V c main_v62 (ix2 k j) := by
  show V c main_v62 (((cfg2.win 4).blk t).view.emb (ix2 k j)) = _
  refine congrArg _ (funext fun a => Fin.ext ?_)
  obtain ⟨e0, e1, -⟩ := idx2w t
  match a with
  | ⟨0, _⟩ => show win2_4.index t (0 : Fin 2) * 256 + 1 * k.val = k.val; omega
  | ⟨1, _⟩ => show win2_4.index t (1 : Fin 2) * 256 + 1 * j.val = j.val; omega

theorem blk2_5 (c : Dev nD) (t : Fin cfg2.N) (k : Fin 256) (j : Fin 256) :
    iblk2 V c 5 t (ix2 k j) = V c main_v63 (ix2 k j) := by
  show V c main_v63 (((cfg2.win 5).blk t).view.emb (ix2 k j)) = _
  refine congrArg _ (funext fun a => Fin.ext ?_)
  obtain ⟨-, -, e0, e1, -⟩ := idx2w t
  match a with
  | ⟨0, _⟩ => show win2_5.index t (0 : Fin 2) * 256 + 1 * k.val = k.val; omega
  | ⟨1, _⟩ => show win2_5.index t (1 : Fin 2) * 256 + 1 * j.val = j.val; omega

theorem blk2_6 (c : Dev nD) (t : Fin cfg2.N) (k : Fin 1) (j : Fin 256) :
    iblk2 V c 6 t (ix2 k j) = V c main_v64 (ix2 k j) := by
  show V c main_v64 (((cfg2.win 6).blk t).view.emb (ix2 k j)) = _
  refine congrArg _ (funext fun a => Fin.ext ?_)
  obtain ⟨-, -, -, -, e0, e1, -⟩ := idx2w t
  match a with
  | ⟨0, _⟩ => show win2_6.index t (0 : Fin 2) * 1 + 1 * k.val = k.val; omega
  | ⟨1, _⟩ => show win2_6.index t (1 : Fin 2) * 256 + 1 * j.val = j.val; omega

theorem blk2_7 (c : Dev nD) (t : Fin cfg2.N) (k : Fin 256) (j : Fin 256) :
    iblk2 V c 7 t (ix2 k j) = V c main_v66 (ix2 k j) := by
  show V c main_v66 (((cfg2.win 7).blk t).view.emb (ix2 k j)) = _
  refine congrArg _ (funext fun a => Fin.ext ?_)
  obtain ⟨-, -, -, -, -, -, e0, e1, -⟩ := idx2w t
  match a with
  | ⟨0, _⟩ => show win2_7.index t (0 : Fin 2) * 256 + 1 * k.val = k.val; omega
  | ⟨1, _⟩ => show win2_7.index t (1 : Fin 2) * 256 + 1 * j.val = j.val; omega

theorem blk2_8 (c : Dev nD) (t : Fin cfg2.N) (k : Fin 256) (j : Fin 256) :
    iblk2 V c 8 t (ix2 k j) = V c main_v68 (ix2 k j) := by
  show V c main_v68 (((cfg2.win 8).blk t).view.emb (ix2 k j)) = _
  refine congrArg _ (funext fun a => Fin.ext ?_)
  obtain ⟨-, -, -, -, -, -, -, -, e0, e1, -⟩ := idx2w t
  match a with
  | ⟨0, _⟩ => show win2_8.index t (0 : Fin 2) * 256 + 1 * k.val = k.val; omega
  | ⟨1, _⟩ => show win2_8.index t (1 : Fin 2) * 256 + 1 * j.val = j.val; omega

theorem blk2_9 (c : Dev nD) (t : Fin cfg2.N) (k : Fin 256) (j : Fin 256) :
    iblk2 V c 9 t (ix2 k j) = V c main_v70 (ix2 k j) := by
  show V c main_v70 (((cfg2.win 9).blk t).view.emb (ix2 k j)) = _
  refine congrArg _ (funext fun a => Fin.ext ?_)
  obtain ⟨-, -, -, -, -, -, -, -, -, -, e0, e1, -⟩ := idx2w t
  match a with
  | ⟨0, _⟩ => show win2_9.index t (0 : Fin 2) * 256 + 1 * k.val = k.val; omega
  | ⟨1, _⟩ => show win2_9.index t (1 : Fin 2) * 256 + 1 * j.val = j.val; omega

theorem blk2_10 (c : Dev nD) (t : Fin cfg2.N) (k : Fin 1) (j : Fin 256) :
    iblk2 V c 10 t (ix2 k j) = V c main_v71 (ix2 k j) := by
  show V c main_v71 (((cfg2.win 10).blk t).view.emb (ix2 k j)) = _
  refine congrArg _ (funext fun a => Fin.ext ?_)
  obtain ⟨-, -, -, -, -, -, -, -, -, -, -, -, e0, e1⟩ := idx2w t
  match a with
  | ⟨0, _⟩ => show win2_10.index t (0 : Fin 2) * 1 + 1 * k.val = k.val; omega
  | ⟨1, _⟩ => show win2_10.index t (1 : Fin 2) * 256 + 1 * j.val = j.val; omega

/-- Where point `t`'s output block sits in the array. -/
theorem emb2_11 (t : Fin cfg2.N) (p : Fin 2000) (j : Fin 256) :
    ((cfg2.win 11).blk t).view.emb (ix2 p j) = ix2 (row2 t p) j := by
  refine funext fun a => Fin.ext ?_
  obtain ⟨-, -, -, -, -, -, -, -, e0, e1⟩ := idx2r t
  match a with
  | ⟨0, _⟩ => show win2_11.index t (0 : Fin 2) * 2000 + 1 * p.val = t.val * 2000 + p.val; omega
  | ⟨1, _⟩ => show win2_11.index t (1 : Fin 2) * 256 + 1 * j.val = j.val; omega

/-! ## The whole-array function, what a point writes back, the cover, the array -/

/-- The third layer formed on the spot, then the closing map piece by piece, at every node. -/
def fin2 (A : Vec Ideal S20000x256 .f32) (I : Vec Ideal S20000x1 .f32) (X2 X1 : Vec Ideal S20000x256 .bf16)
    (W3r W3o : Vec Ideal S256x256 .bf16) (B3 : Vec Ideal S1x256 .f32) (L1 L2 L3 : Vec Ideal S256x256 .bf16)
    (BL : Vec Ideal S1x256 .f32) : Vec Ideal S20000x256 .f32 :=
  fun i => finalConvAt A X2 X1 I W3r W3o B3 L1 L2 L3 BL z0 (i 0) (i 1)

/-- What point `t` writes back is block `t` of that function of the arrays as the region finds them. -/
theorem flushed2 (c : Dev nD) (t : Fin cfg2.N) :
    (dat2 V c).flushed 11 t = ((cfg2.win 11).blk t).view.read (Elt Ideal)
      (fin2 (V c main_v61) (V c main_v12) (V c main_v47) (V c main_v29) (V c main_v62) (V c main_v63) (V c main_v64)
        (V c main_v66) (V c main_v68) (V c main_v70) (V c main_v71)) := by
  show (cfg2.win 11).cut (grid2.coords t) ((dat2 V c).after 11 t) = _
  rw [after2_11]
  funext y
  obtain ⟨p, j, rfl⟩ : ∃ (p : Fin 2000) (j : Fin 256), y = ix2 p j := ⟨y 0, y 1, eq_ix2 y⟩
  show out2_11 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (ix2 p j)
    = fin2 (V c main_v61) (V c main_v12) (V c main_v47) (V c main_v29) (V c main_v62) (V c main_v63) (V c main_v64)
        (V c main_v66) (V c main_v68) (V c main_v70) (V c main_v71) (((cfg2.win 11).blk t).view.emb (ix2 p j))
  rw [out2_11_at, emb2_11]
  show finalConvAt _ _ _ _ _ _ _ _ _ _ _ z0 p j = finalConvAt _ _ _ _ _ _ _ _ _ _ _ z0 (row2 t p) j
  unfold finalConvAt convKerAt
  simp only [blk2_0, blk2_1, blk2_2, blk2_3, blk2_4, blk2_5, blk2_6, blk2_7, blk2_8, blk2_9, blk2_10]

/-- An index of the array is in point `t`'s block iff each coordinate is in the block's range on its axis. -/
theorem mem_blk2 (t : Fin cfg2.N) (i : S20000x256.Idx) :
    i ∈ ((cfg2.win 11).blk t).view.set ↔ ∀ a : Fin 2, win2_11.index t a * S2000x256.size a ≤ (i a).val
      ∧ (i a).val < win2_11.index t a * S2000x256.size a + S2000x256.size a := by
  show i ∈ ((View.whole main_v72).slice (win2_11.rect t)).set ↔ _
  rw [View.set_slice_whole, Rect.mem_set_unit]
  exact Iff.rfl

/-- Row `r` lies in the block of point `r / 2000`: the ten blocks tile the array. -/
theorem cover2 (i : S20000x256.Idx) :
    ∃ t : Fin cfg2.N, (cfg2.win 11).flush t = true ∧ i ∈ ((cfg2.win 11).blk t).view.set := by
  have hi0 : (i 0).val < 20000 := (i 0).isLt
  have hi1 : (i 1).val < 256 := (i 1).isLt
  have hN : cfg2.N = 10 := N_2
  let t : Fin cfg2.N := ⟨(i 0).val / 2000, by omega⟩
  obtain ⟨-, -, -, -, -, -, -, -, e0, e1⟩ := idx2r t
  have ht : t.val = (i 0).val / 2000 := rfl
  refine ⟨t, flush2_11 t, ?_⟩
  rw [mem_blk2]
  intro a
  match a with
  | ⟨0, _⟩ => show win2_11.index t (0 : Fin 2) * 2000 ≤ (i 0).val ∧ (i 0).val < win2_11.index t (0 : Fin 2) * 2000 + 2000; omega
  | ⟨1, _⟩ => show win2_11.index t (1 : Fin 2) * 256 ≤ (i 1).val ∧ (i 1).val < win2_11.index t (1 : Fin 2) * 256 + 256; omega

/-- Region 2's output array — the result — after its ten points. -/
theorem array2 (c : Dev nD) :
    (dat2 V c).arrAt 11 cfg2.N
      = fin2 (V c main_v61) (V c main_v12) (V c main_v47) (V c main_v29) (V c main_v62) (V c main_v63) (V c main_v64)
          (V c main_v66) (V c main_v68) (V c main_v70) (V c main_v71) :=
  (dat2 V c).arrAt_eq_of_cover 11 _ (fun t _ => flushed2 V c t) cover2

end Cert.KernelIdeal.Arrays

end
-- ==== Proof.KerChain3.lean ====
/-
  The kernel program from the end of its second region to its result, in the reference's vocabulary.

  Between the regions the host forms the third aggregation from the second layer's output (the reference's own
  stage), changes the format of the third layer's weights, and cuts the closing matrix into its three blocks of 256
  rows.  Region 2 finds those, the reciprocal column and the first two layers' outputs; its output array forms the
  third layer on the spot — which is the reference's third layer stage, by the same law as before — and applies the
  closing map piece by piece, which is the reference's last stage: a product over the 768 joined columns is the sum
  of the three products over 256 (RefLayers.lean).  So the result array is the reference's result stage (`result`).
-/
import proofs.«163192_j84086869721202_2_alg».proof.Proof.KerChain2
import proofs.«163192_j84086869721202_2_alg».proof.Proof.KerArray2

set_option maxRecDepth 16384

noncomputable section

namespace Cert.Chain

open Cert.KernelIdeal Cert.KernelIdeal.Gen Cert.KernelIdeal.Arrays Cert.GraphConv
open Cert.ReferenceIdeal.Read Cert.ReferenceIdeal.Layers
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

-- the argument arrays as launched, named once (the names stand for terms over `m` and `c` of the statement at hand)
set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)

/-! ## What region 2 finds -/

theorem v5_v61 : V5 m ρ c main_v61 = val_main_v74 (F := Ideal) a0 a1 a2 a3 a4 a5 a6 a7 a8 := by
  show StableHlo.after hostOps2 (W4 m ρ c) (Proc.devRef .tc main_v61) = _
  after_results_simp
  rw [x2_eq m ρ c, w4_v1 m ρ c, w4_v3 m ρ c, w4_arg2 m ρ c]
  rfl

theorem v5_v12 : V5 m ρ c main_v12 = inv m ρ c := by
  show StableHlo.after hostOps2 (W4 m ρ c) (Proc.devRef .tc main_v12) = _
  after_results_simp
  exact w4_v12 m ρ c
theorem v5_v47 : V5 m ρ c main_v47 = val_main_v61 (F := Ideal) a0 a1 a2 a3 a4 a5 a6 a7 a8 := by
  show StableHlo.after hostOps2 (W4 m ρ c) (Proc.devRef .tc main_v47) = _
  after_results_simp
  exact x2_eq m ρ c
theorem v5_v29 : V5 m ρ c main_v29 = val_main_v32 (F := Ideal) a0 a1 a2 a3 a4 a5 := by
  show StableHlo.after hostOps2 (W4 m ρ c) (Proc.devRef .tc main_v29) = _
  after_results_simp
  exact w4_v29 m ρ c
theorem v5_v62 : V5 m ρ c main_v62 = a9 := by
  show StableHlo.after hostOps2 (W4 m ρ c) (Proc.devRef .tc main_v62) = _
  after_results_simp
  rw [w4_arg9 m ρ c]
  rfl
theorem v5_v63 : V5 m ρ c main_v63 = a11 := by
  show StableHlo.after hostOps2 (W4 m ρ c) (Proc.devRef .tc main_v63) = _
  after_results_simp
  rw [w4_arg11 m ρ c]
  rfl
/-- The third layer's bias row reads its bias vector. -/
theorem v5_v64 (k : Fin 1) (j : Fin 256) : V5 m ρ c main_v64 (ix2 k j) = a10 (ix1 j) := by
  show StableHlo.after hostOps2 (W4 m ρ c) (Proc.devRef .tc main_v64) (ix2 k j) = _
  after_results_simp
  rw [w4_arg10 m ρ c]
  exact shapeCast_a_1a_apply _ _ k j
/-- The closing matrix's three blocks of 256 rows, each a slice with the format changed. -/
theorem v5_v66 (k j : Fin 256) : V5 m ρ c main_v66 (ix2 k j) = rows a12 0 (ix2 k j) := by
  show StableHlo.after hostOps2 (W4 m ρ c) (Proc.devRef .tc main_v66) (ix2 k j) = _
  after_results_simp
  rw [w4_arg12 m ρ c]
  show extractStridedSlice S256x256 ![0, 0] a12 slices_S768x256_S256x256_0_0 (ix2 k j)
    = a12 (ix2 (⟨k.val + 256 * 0, by omega⟩ : Fin 768) (⟨j.val, j.isLt⟩ : Fin 256))
  exact extractStridedSlice_apply _ _ _ _ _ (fun a => match a with
    | ⟨0, _⟩ => by show k.val + 256 * 0 = 0 + k.val; omega
    | ⟨1, _⟩ => by show j.val = 0 + j.val; omega)
theorem v5_v68 (k j : Fin 256) : V5 m ρ c main_v68 (ix2 k j) = rows a12 1 (ix2 k j) := by
  show StableHlo.after hostOps2 (W4 m ρ c) (Proc.devRef .tc main_v68) (ix2 k j) = _
  after_results_simp
  rw [w4_arg12 m ρ c]
  show extractStridedSlice S256x256 ![256, 0] a12 slices_S768x256_S256x256_256_0 (ix2 k j)
    = a12 (ix2 (⟨k.val + 256 * 1, by omega⟩ : Fin 768) (⟨j.val, j.isLt⟩ : Fin 256))
  exact extractStridedSlice_apply _ _ _ _ _ (fun a => match a with
    | ⟨0, _⟩ => by show k.val + 256 * 1 = 256 + k.val; omega
    | ⟨1, _⟩ => by show j.val = 0 + j.val; omega)
theorem v5_v70 (k j : Fin 256) : V5 m ρ c main_v70 (ix2 k j) = rows a12 2 (ix2 k j) := by
  show StableHlo.after hostOps2 (W4 m ρ c) (Proc.devRef .tc main_v70) (ix2 k j) = _
  after_results_simp
  rw [w4_arg12 m ρ c]
  show extractStridedSlice S256x256 ![512, 0] a12 slices_S768x256_S256x256_512_0 (ix2 k j)
    = a12 (ix2 (⟨k.val + 256 * 2, by omega⟩ : Fin 768) (⟨j.val, j.isLt⟩ : Fin 256))
  exact extractStridedSlice_apply _ _ _ _ _ (fun a => match a with
    | ⟨0, _⟩ => by show k.val + 256 * 2 = 512 + k.val; omega
    | ⟨1, _⟩ => by show j.val = 0 + j.val; omega)
/-- The closing bias row reads the closing bias vector. -/
theorem v5_v71 (k : Fin 1) (j : Fin 256) : V5 m ρ c main_v71 (ix2 k j) = biasRow a13 (ix2 k j) := by
  show StableHlo.after hostOps2 (W4 m ρ c) (Proc.devRef .tc main_v71) (ix2 k j) = _
  after_results_simp
  rw [w4_arg13 m ρ c]
  exact shapeCast_a_1a_apply _ _ k j

/-! ## The result array is the reference's result -/

/-- The closing map depends on its matrix blocks and bias row only through their entries. -/
theorem finalAt_congr {n w d : ℕ} (X1 X2 X3 : Mat n w) (L1 L2 L3 L1' L2' L3' : Mat w d) (b b' : Mat 1 d) (r : Fin n) (j : Fin d)
    (h1 : ∀ (k : Fin w) (j : Fin d), L1 (ix2 k j) = L1' (ix2 k j)) (h2 : ∀ (k : Fin w) (j : Fin d), L2 (ix2 k j) = L2' (ix2 k j))
    (h3 : ∀ (k : Fin w) (j : Fin d), L3 (ix2 k j) = L3' (ix2 k j)) (hb : ∀ (k : Fin 1) (j : Fin d), b (ix2 k j) = b' (ix2 k j)) :
    finalAt X1 X2 X3 L1 L2 L3 b r j = finalAt X1 X2 X3 L1' L2' L3' b' r j := by
  unfold finalAt
  simp only [h1, h2, h3, hb]

set_option maxHeartbeats 1000000 in
theorem result : W6 m ρ c (Proc.devRef .tc main_v72)
    = val_main_v95 (F := Ideal) a0 a1 a2 a3 a4 a5 a6 a7 a8 a9 a10 a11 a12 a13 := by
  refine (W6_arr m ρ c 11).trans ((array2 (V5 m ρ) c).trans ?_)
  rw [v5_v61 m ρ c, v5_v12 m ρ c, v5_v47 m ρ c, v5_v29 m ρ c, v5_v62 m ρ c, v5_v63 m ρ c]
  funext i
  obtain ⟨r, j, rfl⟩ : ∃ (r : Fin 20000) (j : Fin 256), i = ix2 r j := ⟨i 0, i 1, eq_ix2 i⟩
  refine Eq.trans ?_ (final_at a0 a1 a2 a3 a4 a5 a6 a7 a8 a9 a10 a11 a12 a13 r j).symm
  refine (finalConvAt_eq _ _ _ _ _ _ _ _ _ _ _ _ (val_main_v90 (F := Ideal) a0 a1 a2 a3 a4 a5 a6 a7 a8 a9 a10 a11) r j (fun k => ?_)).trans ?_
  · exact (convKerAt_eq _ _ _ (val_main_v22 (F := Ideal) a1) _ _ _ a10 _ r k (inv_at m ρ c r 0) (deg_ne_zero _ r)
      (v5_v64 m ρ c 0 k)).trans (layer3_at a0 a1 a2 a3 a4 a5 a6 a7 a8 a9 a10 a11 r k).symm
  · exact finalAt_congr _ _ _ _ _ _ _ _ _ _ _ r j (v5_v66 m ρ c) (v5_v68 m ρ c) (v5_v70 m ρ c) (v5_v71 m ρ c)

end Cert.Chain

end
-- ==== Proof.lean ====
/- A three-layer graph convolution with mean aggregation and a closing linear map over the three layers' outputs
   laid side by side: a kernel program of three pipelined regions among stretches of host operations, against a plain
   host reference, as extended reals.

   Both programs gather, weight and sum the messages per destination node with the same host operations; they differ
   only in the dense part.  The kernel multiplies the aggregated messages by the reciprocal of the clamped in-degree,
   computed once, where the reference divides by the clamped in-degree, computed once per layer: x · (1 / y) = x / y
   for y ≠ 0 on all extended reals, and a maximum with one is never zero.  The kernel adds the bias after the second
   matrix product, the reference before it: addition of extended reals is commutative and associative.  The kernel
   stores two layers' outputs in a narrower float format and converts the weights: format changes are the identity
   here.  The kernel takes the closing product in three pieces of 256 columns, the reference over the 768 joined
   columns: a sum over a joined axis is the sum of the pieces' sums.  No step needs an input to be finite.

   The modules: Spec (the layer in both forms and the law between them; the closing map), KerBody / KerBodies (each
   kernel body's stored block, entry by entry), KerArray0–2 (each region's output array as one function of the arrays
   it finds), KernelRun (the kernel program's whole run with its result array named), HostLayer / RefLayers / RefFacts
   (the reference's stages as the same mathematics), LayerBridge, KerChain1–3 (the kernel's boundaries walked in the
   reference's vocabulary, ending with: the result array is the reference's result stage).  The frames of the two
   kernel programs are generated; the reference's frame is its generated run with the result dropped; the kernel is
   its own idealization (no rewrite was applied), so `preserves` is `True`. -/
import proofs.«163192_j84086869721202_2_alg».proof.Defs
import proofs.«163192_j84086869721202_2_alg».proof.Proof.Gen.Kernel
import proofs.«163192_j84086869721202_2_alg».proof.Proof.Gen.Kernel.Skeleton
import proofs.«163192_j84086869721202_2_alg».proof.Proof.Gen.Kernel.Launch
import proofs.«163192_j84086869721202_2_alg».proof.Proof.Gen.Kernel.Points
import proofs.«163192_j84086869721202_2_alg».proof.Proof.Gen.Kernel.Frame
import proofs.«163192_j84086869721202_2_alg».proof.Proof.Gen.KernelIdeal
import proofs.«163192_j84086869721202_2_alg».proof.Proof.Gen.KernelIdeal.Skeleton
import proofs.«163192_j84086869721202_2_alg».proof.Proof.Gen.KernelIdeal.Launch
import proofs.«163192_j84086869721202_2_alg».proof.Proof.Gen.KernelIdeal.Points
import proofs.«163192_j84086869721202_2_alg».proof.Proof.Gen.KernelIdeal.Frame
import proofs.«163192_j84086869721202_2_alg».proof.Proof.Gen.ReferenceIdeal
import proofs.«163192_j84086869721202_2_alg».proof.Proof.Gen.ReferenceIdeal.Run
import proofs.«163192_j84086869721202_2_alg».proof.Proof.Gen.ReferenceIdeal.Read
import proofs.«163192_j84086869721202_2_alg».proof.Proof.Gen.Pre_finite_inputs
import proofs.«163192_j84086869721202_2_alg».proof.Proof.KernelRun
import proofs.«163192_j84086869721202_2_alg».proof.Proof.KerChain3
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's result stage of the (agreeing) argument arrays: the kernel's result array
    by the walk through its boundaries (`Cert.Chain.result`), the reference's by its generated run. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.Chain.result m ρ c), (h c).2⟩)
      (Cert.KernelIdeal.Whole.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq]
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
